-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x2000 : Shape := ⟨2, ![50000, 2000]⟩
abbrev S1600000 : Shape := ⟨1, ![1600000]⟩
abbrev S2000x8 : Shape := ⟨2, ![2000, 8]⟩
abbrev S8 : Shape := ⟨1, ![8]⟩
abbrev S8x8 : Shape := ⟨2, ![8, 8]⟩
abbrev S_ : Shape := ⟨0, ![]⟩

class Facts : Prop where
  bcast_S_S50000x2000 : S_.BroadcastsInDim S50000x2000 (![] : Fin 0 → Fin S50000x2000.rank)
  reducesTo_S50000x2000_S_d0_1 : S50000x2000.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S2000x8 : S_.BroadcastsInDim S2000x8 (![] : Fin 0 → Fin S2000x8.rank)
  reducesTo_S2000x8_S_d0_1 : S2000x8.ReducesTo [0, 1] S_
  bcast_S_S8 : S_.BroadcastsInDim S8 (![] : Fin 0 → Fin S8.rank)
  reducesTo_S8_S_d0 : S8.ReducesTo [0] S_
  bcast_S_S8x8 : S_.BroadcastsInDim S8x8 (![] : Fin 0 → Fin S8x8.rank)
  reducesTo_S8x8_S_d0_1 : S8x8.ReducesTo [0, 1] S_

variable [Facts]

def fn_part1 {F : FTy → Type} [FloatOps F] (main_arg6 : FVec F S8x8 .f32) (main_arg7 : FVec F S8 .f32) (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  let main_v19 : FVec F S8x8 .f32 := Host.absf main_arg6
  let main_cst_6 : FVec F S_ .f32 := constant S_ .f32 0x7F800000#32
  let main_v20 : FVec F S8x8 .f32 := broadcastInDim S8x8 ![] bcast_S_S8x8 main_cst_6
  let main_v21 : IVec S8x8 1 := cmpf .olt main_v19 main_v20
  let main_c_7 : IVec S_ 1 := constantI S_ 1 1#1
  let main_v22 : IVec S_ 1 := (fun x v => Host.reduce IntOp.andi x v reducesTo_S8x8_S_d0_1 h_S_) main_v21 main_c_7
  let main_v23 : IVec S_ 1 := andi main_v18 main_v22
  let main_v24 : FVec F S8 .f32 := Host.absf main_arg7
  let main_cst_8 : FVec F S_ .f32 := constant S_ .f32 0x7F800000#32
  let main_v25 : FVec F S8 .f32 := broadcastInDim S8 ![] bcast_S_S8 main_cst_8
  let main_v26 : IVec S8 1 := cmpf .olt main_v24 main_v25
  let main_c_9 : IVec S_ 1 := constantI S_ 1 1#1
  let main_v27 : IVec S_ 1 := (fun x v => Host.reduce IntOp.andi x v reducesTo_S8_S_d0 h_S_) main_v26 main_c_9
  let main_v28 : IVec S_ 1 := andi main_v23 main_v27
  main_v28

def fn {F : FTy → Type} [FloatOps F] (main_arg0 : FVec F S50000x2000 .f32) (main_arg1 : IVec S1600000 32) (main_arg2 : IVec S1600000 32) (main_arg3 : FVec F S1600000 .f32) (main_arg4 : FVec F S2000x8 .f32) (main_arg5 : FVec F S8 .f32) (main_arg6 : FVec F S8x8 .f32) (main_arg7 : FVec F S8 .f32) : IVec S_ 1 :=
  let main_v0 : FVec F S50000x2000 .f32 := Host.absf main_arg0
  let main_cst : FVec F S_ .f32 := constant S_ .f32 0x7F800000#32
  let main_v1 : FVec F S50000x2000 .f32 := broadcastInDim S50000x2000 ![] bcast_S_S50000x2000 main_cst
  let main_v2 : IVec S50000x2000 1 := cmpf .olt main_v0 main_v1
  let main_c : IVec S_ 1 := constantI S_ 1 1#1
  let main_v3 : IVec S_ 1 := (fun x v => Host.reduce IntOp.andi x v reducesTo_S50000x2000_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S2000x8 .f32 := Host.absf main_arg4
  let main_cst_2 : FVec F S_ .f32 := constant S_ .f32 0x7F800000#32
  let main_v10 : FVec F S2000x8 .f32 := broadcastInDim S2000x8 ![] bcast_S_S2000x8 main_cst_2
  let main_v11 : IVec S2000x8 1 := cmpf .olt main_v9 main_v10
  let main_c_3 : IVec S_ 1 := constantI S_ 1 1#1
  let main_v12 : IVec S_ 1 := (fun x v => Host.reduce IntOp.andi x v reducesTo_S2000x8_S_d0_1 h_S_) main_v11 main_c_3
  let main_v13 : IVec S_ 1 := andi main_v8 main_v12
  let main_v14 : FVec F S8 .f32 := Host.absf main_arg5
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_arg6 main_arg7 main_v13 main_v16
-- ==== Kernel.lean ====
abbrev S50000x2000 : Shape := ⟨2, ![50000, 2000]⟩
abbrev S1600000 : Shape := ⟨1, ![1600000]⟩
abbrev S2000x8 : Shape := ⟨2, ![2000, 8]⟩
abbrev S8 : Shape := ⟨1, ![8]⟩
abbrev S8x8 : Shape := ⟨2, ![8, 8]⟩
abbrev S50000 : Shape := ⟨1, ![50000]⟩
abbrev S1650000 : Shape := ⟨1, ![1650000]⟩
abbrev S_ : Shape := ⟨0, ![]⟩
abbrev S1650000x1 : Shape := ⟨2, ![1650000, 1]⟩
abbrev S50000x8 : Shape := ⟨2, ![50000, 8]⟩
abbrev S1000x2000 : Shape := ⟨2, ![1000, 2000]⟩
abbrev S1000x8 : Shape := ⟨2, ![1000, 8]⟩
abbrev S1650000x8 : Shape := ⟨2, ![1650000, 8]⟩
abbrev S1x8 : Shape := ⟨2, ![1, 8]⟩
abbrev S5000x8 : Shape := ⟨2, ![5000, 8]⟩
abbrev S50000x1 : Shape := ⟨2, ![50000, 1]⟩

abbrev nBuf : Space → Nat
  | .hbm => 104
  | .vmem => 10
  | .smem => 0
  | _ => 0

abbrev bufTy : (tb : Table) → Fin (tcTables nBuf tb) → BufTy
  | .hbm, ⟨0, _⟩ => ⟨S50000x2000, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S2000x8, .f32⟩
  | .hbm, ⟨5, _⟩ => ⟨S8, .f32⟩
  | .hbm, ⟨6, _⟩ => ⟨S8x8, .f32⟩
  | .hbm, ⟨7, _⟩ => ⟨S8, .f32⟩
  | .hbm, ⟨8, _⟩ => ⟨S50000, .i32⟩
  | .hbm, ⟨9, _⟩ => ⟨S1650000, .i32⟩
  | .hbm, ⟨10, _⟩ => ⟨S1650000, .i32⟩
  | .hbm, ⟨11, _⟩ => ⟨S_, .f32⟩
  | .hbm, ⟨12, _⟩ => ⟨S50000, .f32⟩
  | .hbm, ⟨13, _⟩ => ⟨S1650000, .f32⟩
  | .hbm, ⟨14, _⟩ => ⟨S_, .f32⟩
  | .hbm, ⟨15, _⟩ => ⟨S50000, .f32⟩
  | .hbm, ⟨16, _⟩ => ⟨S1650000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .i1⟩
  | .hbm, ⟨21, _⟩ => ⟨S50000, .f32⟩
  | .hbm, ⟨22, _⟩ => ⟨S_, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S1650000, .i32⟩
  | .hbm, ⟨28, _⟩ => ⟨S1650000, .i1⟩
  | .hbm, ⟨29, _⟩ => ⟨S_, .i32⟩
  | .hbm, ⟨30, _⟩ => ⟨S1650000, .i32⟩
  | .hbm, ⟨31, _⟩ => ⟨S1650000, .i32⟩
  | .hbm, ⟨32, _⟩ => ⟨S1650000, .i32⟩
  | .hbm, ⟨33, _⟩ => ⟨S1650000x1, .i32⟩
  | .hbm, ⟨34, _⟩ => ⟨S1650000, .f32⟩
  | .hbm, ⟨35, _⟩ => ⟨S1650000, .f32⟩
  | .hbm, ⟨36, _⟩ => ⟨S_, .i32⟩
  | .hbm, ⟨37, _⟩ => ⟨S1650000, .i32⟩
  | .hbm, ⟨38, _⟩ => ⟨S1650000, .i1⟩
  | .hbm, ⟨39, _⟩ => ⟨S_, .i32⟩
  | .hbm, ⟨40, _⟩ => ⟨S1650000, .i32⟩
  | .hbm, ⟨41, _⟩ => ⟨S1650000, .i32⟩
  | .hbm, ⟨42, _⟩ => ⟨S1650000, .i32⟩
  | .hbm, ⟨43, _⟩ => ⟨S1650000x1, .i32⟩
  | .hbm, ⟨44, _⟩ => ⟨S1650000, .f32⟩
  | .hbm, ⟨45, _⟩ => ⟨S1650000, .f32⟩
  | .hbm, ⟨46, _⟩ => ⟨S50000x8, .f32⟩
  | .hbm, ⟨47, _⟩ => ⟨S_, .i32⟩
  | .hbm, ⟨48, _⟩ => ⟨S1650000, .i32⟩
  | .hbm, ⟨49, _⟩ => ⟨S1650000, .i1⟩
  | .hbm, ⟨50, _⟩ => ⟨S_, .i32⟩
  | .hbm, ⟨51, _⟩ => ⟨S1650000, .i32⟩
  | .hbm, ⟨52, _⟩ => ⟨S1650000, .i32⟩
  | .hbm, ⟨53, _⟩ => ⟨S1650000, .i32⟩
  | .hbm, ⟨54, _⟩ => ⟨S1650000x1, .i32⟩
  | .hbm, ⟨55, _⟩ => ⟨S1650000x8, .f32⟩
  | .hbm, ⟨56, _⟩ => ⟨S1650000x1, .f32⟩
  | .hbm, ⟨57, _⟩ => ⟨S1650000x8, .f32⟩
  | .hbm, ⟨58, _⟩ => ⟨S1650000x8, .f32⟩
  | .hbm, ⟨59, _⟩ => ⟨S_, .f32⟩
  | .hbm, ⟨60, _⟩ => ⟨S50000x8, .f32⟩
  | .hbm, ⟨61, _⟩ => ⟨S1650000x1, .i32⟩
  | .hbm, ⟨62, _⟩ => ⟨S50000x8, .f32⟩
  | .hbm, ⟨63, _⟩ => ⟨S1x8, .f32⟩
  | .hbm, ⟨64, _⟩ => ⟨S50000x8, .f32⟩
  | .hbm, ⟨65, _⟩ => ⟨S50000x8, .f32⟩
  | .hbm, ⟨66, _⟩ => ⟨S_, .f32⟩
  | .hbm, ⟨67, _⟩ => ⟨S50000x8, .f32⟩
  | .hbm, ⟨68, _⟩ => ⟨S50000x8, .f32⟩
  | .hbm, ⟨69, _⟩ => ⟨S50000x8, .f32⟩
  | .hbm, ⟨70, _⟩ => ⟨S_, .i32⟩
  | .hbm, ⟨71, _⟩ => ⟨S1650000, .i32⟩
  | .hbm, ⟨72, _⟩ => ⟨S1650000, .i1⟩
  | .hbm, ⟨73, _⟩ => ⟨S_, .i32⟩
  | .hbm, ⟨74, _⟩ => ⟨S1650000, .i32⟩
  | .hbm, ⟨75, _⟩ => ⟨S1650000, .i32⟩
  | .hbm, ⟨76, _⟩ => ⟨S1650000, .i32⟩
  | .hbm, ⟨77, _⟩ => ⟨S1650000x1, .i32⟩
  | .hbm, ⟨78, _⟩ => ⟨S1650000x8, .f32⟩
  | .hbm, ⟨79, _⟩ => ⟨S1650000x1, .f32⟩
  | .hbm, ⟨80, _⟩ => ⟨S1650000x8, .f32⟩
  | .hbm, ⟨81, _⟩ => ⟨S1650000x8, .f32⟩
  | .hbm, ⟨82, _⟩ => ⟨S_, .f32⟩
  | .hbm, ⟨83, _⟩ => ⟨S50000x8, .f32⟩
  | .hbm, ⟨84, _⟩ => ⟨S1650000x1, .i32⟩
  | .hbm, ⟨85, _⟩ => ⟨S50000x8, .f32⟩
  | .hbm, ⟨86, _⟩ => ⟨S1x8, .f32⟩
  | .hbm, ⟨87, _⟩ => ⟨S50000x8, .f32⟩
  | .hbm, ⟨88, _⟩ => ⟨S50000x8, .f32⟩
  | .hbm, ⟨89, _⟩ => ⟨S_, .f32⟩
  | .hbm, ⟨90, _⟩ => ⟨S50000, .f32⟩
  | .hbm, ⟨91, _⟩ => ⟨S_, .f32⟩
  | .hbm, ⟨92, _⟩ => ⟨S50000, .f32⟩
  | .hbm, ⟨93, _⟩ => ⟨S50000, .f32⟩
  | .hbm, ⟨94, _⟩ => ⟨S50000x1, .f32⟩
  | .hbm, ⟨95, _⟩ => ⟨S50000x8, .f32⟩
  | .hbm, ⟨96, _⟩ => ⟨S50000x8, .f32⟩
  | .hbm, ⟨97, _⟩ => ⟨S50000x8, .f32⟩
  | .hbm, ⟨98, _⟩ => ⟨S_, .f32⟩
  | .hbm, ⟨99, _⟩ => ⟨S50000, .f32⟩
  | .hbm, ⟨100, _⟩ => ⟨S50000x1, .f32⟩
  | .hbm, ⟨101, _⟩ => ⟨S50000x1, .f32⟩
  | .hbm, ⟨102, _⟩ => ⟨S50000x8, .f32⟩
  | .hbm, ⟨103, _⟩ => ⟨S50000x8, .f32⟩
  | .local _ .vmem, ⟨0, _⟩ => ⟨S1000x2000, .f32⟩
  | .local _ .vmem, ⟨1, _⟩ => ⟨S1000x2000, .f32⟩
  | .local _ .vmem, ⟨2, _⟩ => ⟨S2000x8, .f32⟩
  | .local _ .vmem, ⟨3, _⟩ => ⟨S1000x8, .f32⟩
  | .local _ .vmem, ⟨4, _⟩ => ⟨S1000x8, .f32⟩
  | .local _ .vmem, ⟨5, _⟩ => ⟨S5000x8, .f32⟩
  | .local _ .vmem, ⟨6, _⟩ => ⟨S5000x8, .f32⟩
  | .local _ .vmem, ⟨7, _⟩ => ⟨S8x8, .f32⟩
  | .local _ .vmem, ⟨8, _⟩ => ⟨S5000x8, .f32⟩
  | .local _ .vmem, ⟨9, _⟩ => ⟨S5000x8, .f32⟩
  | _, _ => ⟨S50000x2000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_c_7 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_8 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_call1_cst : Ref sig .tc := ⟨.hbm, 66, rfl⟩
abbrev main_call1_v0 : Ref sig .tc := ⟨.hbm, 67, rfl⟩
abbrev main_v45 : Ref sig .tc := ⟨.hbm, 68, rfl⟩
abbrev main_v46 : Ref sig .tc := ⟨.hbm, 69, rfl⟩
abbrev main_c_9 : Ref sig .tc := ⟨.hbm, 70, rfl⟩
abbrev main_v47 : Ref sig .tc := ⟨.hbm, 71, rfl⟩
abbrev main_v48 : Ref sig .tc := ⟨.hbm, 72, rfl⟩
abbrev main_c_10 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_11 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_call2_cst : Ref sig .tc := ⟨.hbm, 89, rfl⟩
abbrev main_call2_v0 : Ref sig .tc := ⟨.hbm, 90, rfl⟩
abbrev main_call2_cst_0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_cst_1 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_v63 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x2000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2000x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x8 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x8 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x8 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  concatenates_S1600000_S50000_S1650000_d0 : Shape.Concatenates [S1600000, S50000] S1650000 0
  bcast_S_S50000 : S_.BroadcastsInDim S50000 (![] : Fin 0 → Fin S50000.rank)
  bcast_S1650000_S1650000x1_0 : S1650000.BroadcastsInDim S1650000x1 (![0] : Fin 1 → Fin S1650000x1.rank)
  bcast_S_S1650000 : S_.BroadcastsInDim S1650000 (![] : Fin 0 → Fin S1650000.rank)
  inb_S1000x2000_S1000x2000_0_0 : ∀ a, (![0, 0] : Fin 2 → Nat) a + S1000x2000.size a ≤ S1000x2000.size a
  h_S1000x2000 : 0 < S1000x2000.numel
  inb_S2000x8_S2000x8_0_0 : ∀ a, (![0, 0] : Fin 2 → Nat) a + S2000x8.size a ≤ S2000x8.size a
  h_S2000x8 : 0 < S2000x8.numel
  inb_S1000x8_S1000x8_0_0 : ∀ a, (![0, 0] : Fin 2 → Nat) a + S1000x8.size a ≤ S1000x8.size a
  h_S1000x8 : 0 < S1000x8.numel
  bcast_S1650000x1_S1650000x8_0_1 : S1650000x1.BroadcastsInDim S1650000x8 (![0, 1] : Fin 2 → Fin S1650000x8.rank)
  bcast_S_S50000x8 : S_.BroadcastsInDim S50000x8 (![] : Fin 0 → Fin S50000x8.rank)
  bcast_S8_S1x8_1 : S8.BroadcastsInDim S1x8 (![1] : Fin 1 → Fin S1x8.rank)
  bcast_S1x8_S50000x8_0_1 : S1x8.BroadcastsInDim S50000x8 (![0, 1] : Fin 2 → Fin S50000x8.rank)
  inb_S5000x8_S5000x8_0_0 : ∀ a, (![0, 0] : Fin 2 → Nat) a + S5000x8.size a ≤ S5000x8.size a
  h_S5000x8 : 0 < S5000x8.numel
  shapeCasts_S5000x8_S5000x8 : S5000x8.ShapeCasts S5000x8
  inb_S8x8_S8x8_0_0 : ∀ a, (![0, 0] : Fin 2 → Nat) a + S8x8.size a ≤ S8x8.size a
  h_S8x8 : 0 < S8x8.numel
  reducesTo_S50000x8_S50000_d1 : S50000x8.ReducesTo [1] S50000
  h_S_ : 0 < S_.numel
  bcast_S50000_S50000x1_0 : S50000.BroadcastsInDim S50000x1 (![0] : Fin 1 → Fin S50000x1.rank)
  bcast_S50000x1_S50000x8_0_1 : S50000x1.BroadcastsInDim S50000x8 (![0, 1] : Fin 2 → Fin S50000x8.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S1000x2000_S2000x8_S1000x8_1_0_0_1_n_n_wf : DotDims.WF S1000x2000 S2000x8 S1000x8 [1] [0] [0] [1] [] []
  gather_S50000x8_S1650000x1_S1650000x8_1_0_n_n_0_1_18_wf : GatherDims.WF S50000x8 S1650000x1 S1650000x8 [1] [0] [] [0] [] 1 ![1, 8]
  scatter_S50000x8_S1650000x1_S1650000x8_1_0_0_1_wf : ScatterDims.WF S50000x8 S1650000x1 S1650000x8 [1] [0] [0] 1
  dot_S5000x8_S8x8_S5000x8_1_0_0_1_n_n_wf : DotDims.WF S5000x8 S8x8 S5000x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x2000.size a ≤ S50000x2000.size a
  hwx0_0 : ∀ i : grid0.Coords, EltTy.bits .f32 = 32 ∨ (Rect.block (s := S50000x2000) S1000x2000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2000x8.size a ≤ S2000x8.size a
  hwx0_1 : ∀ i : grid0.Coords, EltTy.bits .f32 = 32 ∨ (Rect.block (s := S2000x8) S2000x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x8.size a ≤ S50000x8.size a
  hwx0_2 : ∀ i : grid0.Coords, EltTy.bits .f32 = 32 ∨ (Rect.block (s := S50000x8) S1000x8.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x8.size a ≤ S50000x8.size a
  hwx1_0 : ∀ i : grid1.Coords, EltTy.bits .f32 = 32 ∨ (Rect.block (s := S50000x8) S5000x8.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8x8.size a ≤ S8x8.size a
  hwx1_1 : ∀ i : grid1.Coords, EltTy.bits .f32 = 32 ∨ (Rect.block (s := S8x8) S8x8.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x8.size a ≤ S50000x8.size a
  hwx1_2 : ∀ i : grid1.Coords, EltTy.bits .f32 = 32 ∨ (Rect.block (s := S50000x8) S5000x8.size (cc1_transform_2 i) (hinb1_2 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S1000x2000_S2000x8_S1000x8_1_0_0_1_n_n : DotDims S1000x2000 S2000x8 S1000x8 where
  lhsContracting := [1]
  rhsContracting := [0]
  lhsNonContracting := [0]
  rhsNonContracting := [1]
  lhsBatch := []
  rhsBatch := []
  wf := dot_S1000x2000_S2000x8_S1000x8_1_0_0_1_n_n_wf
def gather_S50000x8_S1650000x1_S1650000x8_1_0_n_n_0_1_18 : GatherDims S50000x8 S1650000x1 S1650000x8 where
  offsetDims := [1]
  collapsedSliceDims := [0]
  operandBatchingDims := []
  startIndicesBatchingDims := []
  startIndexMap := [0]
  indexVectorDim := 1
  sliceSizes := ![1, 8]
  wf := gather_S50000x8_S1650000x1_S1650000x8_1_0_n_n_0_1_18_wf
def scatter_S50000x8_S1650000x1_S1650000x8_1_0_0_1 : ScatterDims S50000x8 S1650000x1 S1650000x8 where
  updateWindowDims := [1]
  insertedWindowDims := [0]
  scatterDimsToOperandDims := [0]
  indexVectorDim := 1
  wf := scatter_S50000x8_S1650000x1_S1650000x8_1_0_0_1_wf
def dot_S5000x8_S8x8_S5000x8_1_0_0_1_n_n : DotDims S5000x8 S8x8 S5000x8 where
  lhsContracting := [1]
  rhsContracting := [0]
  lhsNonContracting := [0]
  rhsNonContracting := [1]
  lhsBatch := []
  rhsBatch := []
  wf := dot_S5000x8_S8x8_S5000x8_1_0_0_1_n_n_wf

abbrev win0_0 : Pipeline.Window sig grid0 :=
  Pipeline.Window.ofSpec (Memref.whole main_arg0) S1000x2000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S2000x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S1000x8.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x8.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S8x8.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S5000x8.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x2000 : Shape := ⟨2, ![50000, 2000]⟩
abbrev S1600000 : Shape := ⟨1, ![1600000]⟩
abbrev S2000x8 : Shape := ⟨2, ![2000, 8]⟩
abbrev S8 : Shape := ⟨1, ![8]⟩
abbrev S8x8 : Shape := ⟨2, ![8, 8]⟩
abbrev S50000 : Shape := ⟨1, ![50000]⟩
abbrev S1650000 : Shape := ⟨1, ![1650000]⟩
abbrev S_ : Shape := ⟨0, ![]⟩
abbrev S1650000x1 : Shape := ⟨2, ![1650000, 1]⟩
abbrev S50000x8 : Shape := ⟨2, ![50000, 8]⟩
abbrev S1650000x8 : Shape := ⟨2, ![1650000, 8]⟩
abbrev S1x8 : Shape := ⟨2, ![1, 8]⟩
abbrev S50000x1 : Shape := ⟨2, ![50000, 1]⟩

abbrev nBuf : Space → Nat
  | .hbm => 104
  | .vmem => 0
  | .smem => 0
  | _ => 0

abbrev bufTy : (tb : Table) → Fin (tcTables nBuf tb) → BufTy
  | .hbm, ⟨0, _⟩ => ⟨S50000x2000, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S2000x8, .f32⟩
  | .hbm, ⟨5, _⟩ => ⟨S8, .f32⟩
  | .hbm, ⟨6, _⟩ => ⟨S8x8, .f32⟩
  | .hbm, ⟨7, _⟩ => ⟨S8, .f32⟩
  | .hbm, ⟨8, _⟩ => ⟨S50000, .i32⟩
  | .hbm, ⟨9, _⟩ => ⟨S1650000, .i32⟩
  | .hbm, ⟨10, _⟩ => ⟨S1650000, .i32⟩
  | .hbm, ⟨11, _⟩ => ⟨S_, .f32⟩
  | .hbm, ⟨12, _⟩ => ⟨S50000, .f32⟩
  | .hbm, ⟨13, _⟩ => ⟨S1650000, .f32⟩
  | .hbm, ⟨14, _⟩ => ⟨S_, .f32⟩
  | .hbm, ⟨15, _⟩ => ⟨S50000, .f32⟩
  | .hbm, ⟨16, _⟩ => ⟨S1650000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .i1⟩
  | .hbm, ⟨21, _⟩ => ⟨S50000, .f32⟩
  | .hbm, ⟨22, _⟩ => ⟨S_, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S1650000, .i32⟩
  | .hbm, ⟨28, _⟩ => ⟨S1650000, .i1⟩
  | .hbm, ⟨29, _⟩ => ⟨S_, .i32⟩
  | .hbm, ⟨30, _⟩ => ⟨S1650000, .i32⟩
  | .hbm, ⟨31, _⟩ => ⟨S1650000, .i32⟩
  | .hbm, ⟨32, _⟩ => ⟨S1650000, .i32⟩
  | .hbm, ⟨33, _⟩ => ⟨S1650000x1, .i32⟩
  | .hbm, ⟨34, _⟩ => ⟨S1650000, .f32⟩
  | .hbm, ⟨35, _⟩ => ⟨S1650000, .f32⟩
  | .hbm, ⟨36, _⟩ => ⟨S_, .i32⟩
  | .hbm, ⟨37, _⟩ => ⟨S1650000, .i32⟩
  | .hbm, ⟨38, _⟩ => ⟨S1650000, .i1⟩
  | .hbm, ⟨39, _⟩ => ⟨S_, .i32⟩
  | .hbm, ⟨40, _⟩ => ⟨S1650000, .i32⟩
  | .hbm, ⟨41, _⟩ => ⟨S1650000, .i32⟩
  | .hbm, ⟨42, _⟩ => ⟨S1650000, .i32⟩
  | .hbm, ⟨43, _⟩ => ⟨S1650000x1, .i32⟩
  | .hbm, ⟨44, _⟩ => ⟨S1650000, .f32⟩
  | .hbm, ⟨45, _⟩ => ⟨S1650000, .f32⟩
  | .hbm, ⟨46, _⟩ => ⟨S50000x8, .f32⟩
  | .hbm, ⟨47, _⟩ => ⟨S_, .i32⟩
  | .hbm, ⟨48, _⟩ => ⟨S1650000, .i32⟩
  | .hbm, ⟨49, _⟩ => ⟨S1650000, .i1⟩
  | .hbm, ⟨50, _⟩ => ⟨S_, .i32⟩
  | .hbm, ⟨51, _⟩ => ⟨S1650000, .i32⟩
  | .hbm, ⟨52, _⟩ => ⟨S1650000, .i32⟩
  | .hbm, ⟨53, _⟩ => ⟨S1650000, .i32⟩
  | .hbm, ⟨54, _⟩ => ⟨S1650000x1, .i32⟩
  | .hbm, ⟨55, _⟩ => ⟨S1650000x8, .f32⟩
  | .hbm, ⟨56, _⟩ => ⟨S1650000x1, .f32⟩
  | .hbm, ⟨57, _⟩ => ⟨S1650000x8, .f32⟩
  | .hbm, ⟨58, _⟩ => ⟨S1650000x8, .f32⟩
  | .hbm, ⟨59, _⟩ => ⟨S_, .f32⟩
  | .hbm, ⟨60, _⟩ => ⟨S50000x8, .f32⟩
  | .hbm, ⟨61, _⟩ => ⟨S1650000x1, .i32⟩
  | .hbm, ⟨62, _⟩ => ⟨S50000x8, .f32⟩
  | .hbm, ⟨63, _⟩ => ⟨S1x8, .f32⟩
  | .hbm, ⟨64, _⟩ => ⟨S50000x8, .f32⟩
  | .hbm, ⟨65, _⟩ => ⟨S50000x8, .f32⟩
  | .hbm, ⟨66, _⟩ => ⟨S_, .f32⟩
  | .hbm, ⟨67, _⟩ => ⟨S50000x8, .f32⟩
  | .hbm, ⟨68, _⟩ => ⟨S50000x8, .f32⟩
  | .hbm, ⟨69, _⟩ => ⟨S50000x8, .f32⟩
  | .hbm, ⟨70, _⟩ => ⟨S_, .i32⟩
  | .hbm, ⟨71, _⟩ => ⟨S1650000, .i32⟩
  | .hbm, ⟨72, _⟩ => ⟨S1650000, .i1⟩
  | .hbm, ⟨73, _⟩ => ⟨S_, .i32⟩
  | .hbm, ⟨74, _⟩ => ⟨S1650000, .i32⟩
  | .hbm, ⟨75, _⟩ => ⟨S1650000, .i32⟩
  | .hbm, ⟨76, _⟩ => ⟨S1650000, .i32⟩
  | .hbm, ⟨77, _⟩ => ⟨S1650000x1, .i32⟩
  | .hbm, ⟨78, _⟩ => ⟨S1650000x8, .f32⟩
  | .hbm, ⟨79, _⟩ => ⟨S1650000x1, .f32⟩
  | .hbm, ⟨80, _⟩ => ⟨S1650000x8, .f32⟩
  | .hbm, ⟨81, _⟩ => ⟨S1650000x8, .f32⟩
  | .hbm, ⟨82, _⟩ => ⟨S_, .f32⟩
  | .hbm, ⟨83, _⟩ => ⟨S50000x8, .f32⟩
  | .hbm, ⟨84, _⟩ => ⟨S1650000x1, .i32⟩
  | .hbm, ⟨85, _⟩ => ⟨S50000x8, .f32⟩
  | .hbm, ⟨86, _⟩ => ⟨S1x8, .f32⟩
  | .hbm, ⟨87, _⟩ => ⟨S50000x8, .f32⟩
  | .hbm, ⟨88, _⟩ => ⟨S50000x8, .f32⟩
  | .hbm, ⟨89, _⟩ => ⟨S_, .f32⟩
  | .hbm, ⟨90, _⟩ => ⟨S50000, .f32⟩
  | .hbm, ⟨91, _⟩ => ⟨S_, .f32⟩
  | .hbm, ⟨92, _⟩ => ⟨S50000, .f32⟩
  | .hbm, ⟨93, _⟩ => ⟨S50000, .f32⟩
  | .hbm, ⟨94, _⟩ => ⟨S50000x1, .f32⟩
  | .hbm, ⟨95, _⟩ => ⟨S50000x8, .f32⟩
  | .hbm, ⟨96, _⟩ => ⟨S50000x8, .f32⟩
  | .hbm, ⟨97, _⟩ => ⟨S50000x8, .f32⟩
  | .hbm, ⟨98, _⟩ => ⟨S_, .f32⟩
  | .hbm, ⟨99, _⟩ => ⟨S50000, .f32⟩
  | .hbm, ⟨100, _⟩ => ⟨S50000x1, .f32⟩
  | .hbm, ⟨101, _⟩ => ⟨S50000x1, .f32⟩
  | .hbm, ⟨102, _⟩ => ⟨S50000x8, .f32⟩
  | .hbm, ⟨103, _⟩ => ⟨S50000x8, .f32⟩
  | _, _ => ⟨S50000x2000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_c_7 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_8 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_call1_cst : Ref sig .tc := ⟨.hbm, 66, rfl⟩
abbrev main_call1_v0 : Ref sig .tc := ⟨.hbm, 67, rfl⟩
abbrev main_v45 : Ref sig .tc := ⟨.hbm, 68, rfl⟩
abbrev main_v46 : Ref sig .tc := ⟨.hbm, 69, rfl⟩
abbrev main_c_9 : Ref sig .tc := ⟨.hbm, 70, rfl⟩
abbrev main_v47 : Ref sig .tc := ⟨.hbm, 71, rfl⟩
abbrev main_v48 : Ref sig .tc := ⟨.hbm, 72, rfl⟩
abbrev main_c_10 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_11 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_call2_cst : Ref sig .tc := ⟨.hbm, 89, rfl⟩
abbrev main_call2_v0 : Ref sig .tc := ⟨.hbm, 90, rfl⟩
abbrev main_call2_cst_0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_cst_1 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_v63 : Ref sig .tc := ⟨.hbm, 103, rfl⟩

abbrev nD : Nat := 1
abbrev τ : Topo := Topo.v7x

variable {F : FTy → Type} [FloatOps F]

class Facts₀ : Prop where
  concatenates_S1600000_S50000_S1650000_d0 : Shape.Concatenates [S1600000, S50000] S1650000 0
  bcast_S_S50000 : S_.BroadcastsInDim S50000 (![] : Fin 0 → Fin S50000.rank)
  bcast_S1650000_S1650000x1_0 : S1650000.BroadcastsInDim S1650000x1 (![0] : Fin 1 → Fin S1650000x1.rank)
  bcast_S_S1650000 : S_.BroadcastsInDim S1650000 (![] : Fin 0 → Fin S1650000.rank)
  bcast_S1650000x1_S1650000x8_0_1 : S1650000x1.BroadcastsInDim S1650000x8 (![0, 1] : Fin 2 → Fin S1650000x8.rank)
  bcast_S_S50000x8 : S_.BroadcastsInDim S50000x8 (![] : Fin 0 → Fin S50000x8.rank)
  bcast_S8_S1x8_1 : S8.BroadcastsInDim S1x8 (![1] : Fin 1 → Fin S1x8.rank)
  bcast_S1x8_S50000x8_0_1 : S1x8.BroadcastsInDim S50000x8 (![0, 1] : Fin 2 → Fin S50000x8.rank)
  reducesTo_S50000x8_S50000_d1 : S50000x8.ReducesTo [1] S50000
  h_S_ : 0 < S_.numel
  bcast_S50000_S50000x1_0 : S50000.BroadcastsInDim S50000x1 (![0] : Fin 1 → Fin S50000x1.rank)
  bcast_S50000x1_S50000x8_0_1 : S50000x1.BroadcastsInDim S50000x8 (![0, 1] : Fin 2 → Fin S50000x8.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x2000_S2000x8_S50000x8_1_0_0_1_n_n_wf : DotDims.WF S50000x2000 S2000x8 S50000x8 [1] [0] [0] [1] [] []
  gather_S50000x8_S1650000x1_S1650000x8_1_0_n_n_0_1_18_wf : GatherDims.WF S50000x8 S1650000x1 S1650000x8 [1] [0] [] [0] [] 1 ![1, 8]
  scatter_S50000x8_S1650000x1_S1650000x8_1_0_0_1_wf : ScatterDims.WF S50000x8 S1650000x1 S1650000x8 [1] [0] [0] 1
  dot_S50000x8_S8x8_S50000x8_1_0_0_1_n_n_wf : DotDims.WF S50000x8 S8x8 S50000x8 [1] [0] [0] [1] [] []

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x2000_S2000x8_S50000x8_1_0_0_1_n_n : DotDims S50000x2000 S2000x8 S50000x8 where
  lhsContracting := [1]
  rhsContracting := [0]
  lhsNonContracting := [0]
  rhsNonContracting := [1]
  lhsBatch := []
  rhsBatch := []
  wf := dot_S50000x2000_S2000x8_S50000x8_1_0_0_1_n_n_wf
def gather_S50000x8_S1650000x1_S1650000x8_1_0_n_n_0_1_18 : GatherDims S50000x8 S1650000x1 S1650000x8 where
  offsetDims := [1]
  collapsedSliceDims := [0]
  operandBatchingDims := []
  startIndicesBatchingDims := []
  startIndexMap := [0]
  indexVectorDim := 1
  sliceSizes := ![1, 8]
  wf := gather_S50000x8_S1650000x1_S1650000x8_1_0_n_n_0_1_18_wf
def scatter_S50000x8_S1650000x1_S1650000x8_1_0_0_1 : ScatterDims S50000x8 S1650000x1 S1650000x8 where
  updateWindowDims := [1]
  insertedWindowDims := [0]
  scatterDimsToOperandDims := [0]
  indexVectorDim := 1
  wf := scatter_S50000x8_S1650000x1_S1650000x8_1_0_0_1_wf
def dot_S50000x8_S8x8_S50000x8_1_0_0_1_n_n : DotDims S50000x8 S8x8 S50000x8 where
  lhsContracting := [1]
  rhsContracting := [0]
  lhsNonContracting := [0]
  rhsNonContracting := [1]
  lhsBatch := []
  rhsBatch := []
  wf := dot_S50000x8_S8x8_S50000x8_1_0_0_1_n_n_wf

class Facts : Prop extends Facts₀ where

variable [Facts]
-- ==== Proof.KernelRun.lean ====
/-
  The idealized kernel program's run, with its result named.

  @main is nine segments — three stretches of host operations, the first matrix product's grid of 50 row blocks, two
  stretches, the second product's grid of 10 row blocks, two stretches. Every weakly fair execution of it terminates
  without a fault; at the end every buffer that outlives a kernel call holds the contents of the last segment
  boundary, `W9`: the fold of the host stretches over the launch memory, each grid's output array in between at what
  its write-backs leave. So the result buffer holds `W9` at the result's reference, and each argument array what it
  held at launch (no segment writes an argument). The statement holds at any float instance.
-/
import proofs.«130387_j24558622999235_1_alg».proof.Proof.Gen.KernelIdeal.Frame

set_option maxRecDepth 16384

noncomputable section

namespace Cert.KernelIdeal.NamedRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer then holds the last boundary's
    contents at the result's reference, and the eight argument arrays are as launched. -/
theorem run : θ_run defs (onTc (τ := τ) (main (F := F))) ⟨m, fun _ => 0, ρ⟩ (fun r => ∀ c : Dev nD,
      r.2.mem ((c.tc : Thread nD τ).loc main_v63) = W9 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v63 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c)⟩)

end Cert.KernelIdeal.NamedRun

end
-- ==== Proof.Shared.lean ====
/-
  The host side of the two-layer graph convolution, as functions of arrays.

  Both programs compute   logSoftmax (conv (relu (conv (x · W1) … b1) · W2) … b2)   where, with the self loops
  appended to the edge lists (`withLoops`) and weight one on every self loop (`weights`),
    deg   = the weighted in-degree of every node (a scatter-add of the weights at the targets),
    dinv  = deg^(-1/2) where deg > 0, else 0,
    norm  = dinv[source] · weight · dinv[target]                       (one number per edge),
    conv h s d n b = (scatter-add at the targets d of  h[source s] · n)  +  b   (b along every row).
  The two programs differ only in how the two matrix products are computed; everything here is common to both and is
  never opened by the proofs that use it.
-/
import proofs.«130387_j24558622999235_1_alg».proof.Proof.Gen.ReferenceIdeal

noncomputable section

namespace Cert.GraphConv

open Cert.ReferenceIdeal Cert.ReferenceIdeal.Gen Idealize.ShloMosaic Idealize.ShloMosaic.TcCoe Idealize.SL.Sem Idealize.ShloMosaic.StableHlo

variable {F : FTy → Type} [FloatOps F]

/-- An edge list of node numbers with the self loops 0, 1, …, 49999 appended. -/
def withLoops (e : (⟨S1600000, .i32⟩ : BufTy).Contents (Elt F)) : (⟨S1650000, .i32⟩ : BufTy).Contents (Elt F) :=
  concatenate S1650000 0 [⟨S1600000, e⟩, ⟨S50000, (iotaInDim S50000 32 0)⟩] concatenates_S1600000_S50000_S1650000_d0

/-- The edge weights with weight one appended for every self loop. -/
def weights (w : (⟨S1600000, .f32⟩ : BufTy).Contents (Elt F)) : (⟨S1650000, .f32⟩ : BufTy).Contents (Elt F) :=
  concatenate S1650000 0 [⟨S1600000, w⟩, ⟨S50000, (broadcastInDim S50000 ![] bcast_S_S50000 (constant S_ .f32 0x3F800000#32))⟩] concatenates_S1600000_S50000_S1650000_d0

/-- Node numbers as a column of start indices, a negative one counted from the end (50000 added). -/
def wrap (s : (⟨S1650000, .i32⟩ : BufTy).Contents (Elt F)) : (⟨S1650000x1, .i32⟩ : BufTy).Contents (Elt F) :=
  broadcastInDim S1650000x1 ![0] bcast_S1650000_S1650000x1_0 (select (cmpi .slt s (broadcastInDim S1650000 ![] bcast_S_S1650000 (constantI S_ 32 0#32))) (addi s (broadcastInDim S1650000 ![] bcast_S_S1650000 (constantI S_ 32 50000#32))) s)

/-- The weighted in-degree of every node. -/
def deg (a2 : (⟨S1600000, .i32⟩ : BufTy).Contents (Elt F)) (a3 : (⟨S1600000, .f32⟩ : BufTy).Contents (Elt F)) : (⟨S50000, .f32⟩ : BufTy).Contents (Elt F) :=
  Host.scatterAdd scatter_S50000_S1650000x1_S1650000_n_0_0_1 (broadcastInDim S50000 ![] bcast_S_S50000 (constant S_ .f32 0x00000000#32)) (broadcastInDim S1650000x1 ![0] bcast_S1650000_S1650000x1_0 (withLoops a2)) (weights a3)

/-- deg^(-1/2) where the degree is positive, zero elsewhere. -/
def dinv (a2 : (⟨S1600000, .i32⟩ : BufTy).Contents (Elt F)) (a3 : (⟨S1600000, .f32⟩ : BufTy).Contents (Elt F)) : (⟨S50000, .f32⟩ : BufTy).Contents (Elt F) :=
  select (cmpf .ogt (deg a2 a3) (broadcastInDim S50000 ![] bcast_S_S50000 (constant S_ .f32 0x00000000#32))) (Host.rsqrt (deg a2 a3)) (broadcastInDim S50000 ![] bcast_S_S50000 (id (constant S_ .f32 0x00000000#32)))

/-- The symmetric normalisation of every edge: dinv at its source, times its weight, times dinv at its target. -/
def norm (a1 a2 : (⟨S1600000, .i32⟩ : BufTy).Contents (Elt F)) (a3 : (⟨S1600000, .f32⟩ : BufTy).Contents (Elt F)) : (⟨S1650000, .f32⟩ : BufTy).Contents (Elt F) :=
  mulf (mulf (Host.gather gather_S50000_S1650000x1_S1650000_n_0_n_n_0_1_1 (dinv a2 a3) (wrap (withLoops a1))) (weights a3)) (Host.gather gather_S50000_S1650000x1_S1650000_n_0_n_n_0_1_1 (dinv a2 a3) (wrap (withLoops a2)))

/-- One propagation step: every edge carries its source's row of `h` scaled by the edge's normalisation `n` to its
    target `d`, where the rows add up; then the bias `b` is added to every row. -/
def conv (h : (⟨S50000x8, .f32⟩ : BufTy).Contents (Elt F)) (s d : (⟨S1650000, .i32⟩ : BufTy).Contents (Elt F)) (n : (⟨S1650000, .f32⟩ : BufTy).Contents (Elt F)) (b : (⟨S8, .f32⟩ : BufTy).Contents (Elt F)) : (⟨S50000x8, .f32⟩ : BufTy).Contents (Elt F) :=
  addf (Host.scatterAdd scatter_S50000x8_S1650000x1_S1650000x8_1_0_0_1 (broadcastInDim S50000x8 ![] bcast_S_S50000x8 (constant S_ .f32 0x00000000#32)) (broadcastInDim S1650000x1 ![0] bcast_S1650000_S1650000x1_0 d) (mulf (Host.gather gather_S50000x8_S1650000x1_S1650000x8_1_0_n_n_0_1_18 h (wrap s)) (broadcastInDim S1650000x8 ![0, 1] bcast_S1650000x1_S1650000x8_0_1 (broadcastInDim S1650000x1 ![0] bcast_S1650000_S1650000x1_0 n)))) (broadcastInDim S50000x8 ![0, 1] bcast_S1x8_S50000x8_0_1 (broadcastInDim S1x8 ![1] bcast_S8_S1x8_1 b))

/-- The rectifier, entry by entry. -/
def relu (y : (⟨S50000x8, .f32⟩ : BufTy).Contents (Elt F)) : (⟨S50000x8, .f32⟩ : BufTy).Contents (Elt F) :=
  maximumf y (broadcastInDim S50000x8 ![] bcast_S_S50000x8 (constant S_ .f32 0x00000000#32))

/-- A row's entries minus the row's maximum. -/
def centred (y : (⟨S50000x8, .f32⟩ : BufTy).Contents (Elt F)) : (⟨S50000x8, .f32⟩ : BufTy).Contents (Elt F) :=
  subf y (broadcastInDim S50000x8 ![0, 1] bcast_S50000x1_S50000x8_0_1 (broadcastInDim S50000x1 ![0] bcast_S50000_S50000x1_0 (maximumf (broadcastInDim S50000 ![] bcast_S_S50000 (constant S_ .f32 0xFF800000#32)) (Host.reduce FloatOps.maximumf y (constant S_ .f32 0xFF800000#32) reducesTo_S50000x8_S50000_d1 h_S_))))

/-- The logarithm of the softmax along every row. -/
def logSoftmax (y : (⟨S50000x8, .f32⟩ : BufTy).Contents (Elt F)) : (⟨S50000x8, .f32⟩ : BufTy).Contents (Elt F) :=
  subf (centred y) (broadcastInDim S50000x8 ![0, 1] bcast_S50000x1_S50000x8_0_1 (Host.log (broadcastInDim S50000x1 ![0] bcast_S50000_S50000x1_0 (Host.reduceAdd (Host.exp (centred y)) (constant S_ .f32 0x00000000#32) reducesTo_S50000x8_S50000_d1 h_S_))))

/-- The first layer after its matrix product `h`: propagate, add the bias, rectify. -/
def layer1 (h : (⟨S50000x8, .f32⟩ : BufTy).Contents (Elt F)) (s d : (⟨S1650000, .i32⟩ : BufTy).Contents (Elt F)) (n : (⟨S1650000, .f32⟩ : BufTy).Contents (Elt F)) (b : (⟨S8, .f32⟩ : BufTy).Contents (Elt F)) : (⟨S50000x8, .f32⟩ : BufTy).Contents (Elt F) :=
  relu (conv h s d n b)

/-- The second layer after its matrix product `h`: propagate, add the bias, log-softmax. -/
def layer2 (h : (⟨S50000x8, .f32⟩ : BufTy).Contents (Elt F)) (s d : (⟨S1650000, .i32⟩ : BufTy).Contents (Elt F)) (n : (⟨S1650000, .f32⟩ : BufTy).Contents (Elt F)) (b : (⟨S8, .f32⟩ : BufTy).Contents (Elt F)) : (⟨S50000x8, .f32⟩ : BufTy).Contents (Elt F) :=
  logSoftmax (conv h s d n b)

/-- The whole network as one function of the eight argument arrays, the two matrix products as the host computes them. -/
def net (a0 : (⟨S50000x2000, .f32⟩ : BufTy).Contents (Elt F)) (a1 a2 : (⟨S1600000, .i32⟩ : BufTy).Contents (Elt F)) (a3 : (⟨S1600000, .f32⟩ : BufTy).Contents (Elt F))
    (a4 : (⟨S2000x8, .f32⟩ : BufTy).Contents (Elt F)) (a5 : (⟨S8, .f32⟩ : BufTy).Contents (Elt F)) (a6 : (⟨S8x8, .f32⟩ : BufTy).Contents (Elt F)) (a7 : (⟨S8, .f32⟩ : BufTy).Contents (Elt F)) :
    (⟨S50000x8, .f32⟩ : BufTy).Contents (Elt F) :=
  layer2 (Host.dotGeneral dot_S50000x8_S8x8_S50000x8_1_0_0_1_n_n none
      (layer1 (Host.dotGeneral dot_S50000x2000_S2000x8_S50000x8_1_0_0_1_n_n none a0 a4) (withLoops a1) (withLoops a2) (norm a1 a2 a3) a5) a6)
    (withLoops a1) (withLoops a2) (norm a1 a2 a3) a7

end Cert.GraphConv

end
-- ==== Proof.LibCastSame.lean ====
/-
  Moving a value along an equation of a type with itself changes nothing.

  Stated as a proposition proved from heterogeneous equality, not by unfolding: a rewriting pass that uses it
  replaces each such move by the value itself with an explicit equation at that one place, instead of asking for the
  whole surrounding term to be compared with its unfolded form.
-/

namespace Cert.CastSame

universe u

/-- A value moved along a proof that its type equals itself is the value. -/
theorem cast_same {α : Sort u} (h : α = α) (a : α) : cast h a = a := eq_of_heq (cast_heq h a)

end Cert.CastSame
-- ==== Proof.HostReads.lean ====
/-
  The three stretches of host operations of the kernel program, each read as a function of the buffers it starts from.

  Between the launch and the first matrix product the program appends the self loops to the two edge lists and computes
  every edge's normalisation; between the two products it propagates the first product along the edges, adds the bias
  and rectifies; after the second product it propagates again, adds the bias and takes the row-wise log-softmax. Each
  stretch is a straight line of operations, so the buffer it leaves its result in holds the composition of those
  operations applied to the buffers the stretch read, whatever those held (`X`), and a buffer the stretch does not write
  holds what it held. The compositions are the shared functions `withLoops`, `norm`, `layer1`, `layer2`. (A called
  function's operations move their values along the equality of a buffer's declared type with the value's type; those
  moves are identities and are rewritten away before the two sides are compared.)
-/
import proofs.«130387_j24558622999235_1_alg».proof.Proof.Gen.KernelIdeal.Launch
import proofs.«130387_j24558622999235_1_alg».proof.Proof.Shared
import proofs.«130387_j24558622999235_1_alg».proof.Proof.LibCastSame
import Idealize.ShloMosaic.Lib.StableHlo.Run

set_option maxRecDepth 16384

noncomputable section

namespace Cert.KernelIdeal.HostReads

open Cert.KernelIdeal Cert.KernelIdeal.Gen
open Idealize.ShloMosaic Idealize.ShloMosaic.TcCoe Idealize.SL.Sem Idealize.ShloMosaic.StableHlo
open Cert.GraphConv

variable {F : FTy → Type} [FloatOps F]

-- the buffers' contents when a stretch starts: any
variable (X : Valuation τ sig (Elt F))

/-! ## Before the first product -/

theorem pre_sources : StableHlo.after (hostOps0_2 (F := F)) (StableHlo.after hostOps0_1 (StableHlo.after hostOps0 X)) (Proc.devRef .tc main_v1) = withLoops (X (Proc.devRef .tc main_arg1)) := by
  simp only [hostOps0, hostOps0_1, hostOps0_2]
  after_results_simp
  rfl

theorem pre_targets : StableHlo.after (hostOps0_2 (F := F)) (StableHlo.after hostOps0_1 (StableHlo.after hostOps0 X)) (Proc.devRef .tc main_v2) = withLoops (X (Proc.devRef .tc main_arg2)) := by
  simp only [hostOps0, hostOps0_1, hostOps0_2]
  after_results_simp
  rfl

theorem pre_norm : StableHlo.after (hostOps0_2 (F := F)) (StableHlo.after hostOps0_1 (StableHlo.after hostOps0 X)) (Proc.devRef .tc main_v27) = norm (X (Proc.devRef .tc main_arg1)) (X (Proc.devRef .tc main_arg2)) (X (Proc.devRef .tc main_arg3)) := by
  simp only [hostOps0, hostOps0_1, hostOps0_2]
  after_results_simp
  simp only [Cert.CastSame.cast_same]
  rfl

theorem pre_keep_arg0 : StableHlo.after (hostOps0_2 (F := F)) (StableHlo.after hostOps0_1 (StableHlo.after hostOps0 X)) (Proc.devRef .tc main_arg0) = X (Proc.devRef .tc main_arg0) := by
  simp only [hostOps0, hostOps0_1, hostOps0_2]
  after_results_simp

theorem pre_keep_arg4 : StableHlo.after (hostOps0_2 (F := F)) (StableHlo.after hostOps0_1 (StableHlo.after hostOps0 X)) (Proc.devRef .tc main_arg4) = X (Proc.devRef .tc main_arg4) := by
  simp only [hostOps0, hostOps0_1, hostOps0_2]
  after_results_simp

theorem pre_keep_arg5 : StableHlo.after (hostOps0_2 (F := F)) (StableHlo.after hostOps0_1 (StableHlo.after hostOps0 X)) (Proc.devRef .tc main_arg5) = X (Proc.devRef .tc main_arg5) := by
  simp only [hostOps0, hostOps0_1, hostOps0_2]
  after_results_simp

theorem pre_keep_arg6 : StableHlo.after (hostOps0_2 (F := F)) (StableHlo.after hostOps0_1 (StableHlo.after hostOps0 X)) (Proc.devRef .tc main_arg6) = X (Proc.devRef .tc main_arg6) := by
  simp only [hostOps0, hostOps0_1, hostOps0_2]
  after_results_simp

theorem pre_keep_arg7 : StableHlo.after (hostOps0_2 (F := F)) (StableHlo.after hostOps0_1 (StableHlo.after hostOps0 X)) (Proc.devRef .tc main_arg7) = X (Proc.devRef .tc main_arg7) := by
  simp only [hostOps0, hostOps0_1, hostOps0_2]
  after_results_simp

/-! ## Between the two products -/

theorem mid_out : StableHlo.after (hostOps1_1 (F := F)) (StableHlo.after hostOps1 X) (Proc.devRef .tc main_v45)
    = layer1 (X (Proc.devRef .tc main_v28)) (X (Proc.devRef .tc main_v1)) (X (Proc.devRef .tc main_v2)) (X (Proc.devRef .tc main_v27)) (X (Proc.devRef .tc main_arg5)) := by
  simp only [hostOps1, hostOps1_1]
  after_results_simp
  simp only [Cert.CastSame.cast_same]
  rfl

theorem mid_keep_v1 : StableHlo.after (hostOps1_1 (F := F)) (StableHlo.after hostOps1 X) (Proc.devRef .tc main_v1) = X (Proc.devRef .tc main_v1) := by
  simp only [hostOps1, hostOps1_1]
  after_results_simp

theorem mid_keep_v2 : StableHlo.after (hostOps1_1 (F := F)) (StableHlo.after hostOps1 X) (Proc.devRef .tc main_v2) = X (Proc.devRef .tc main_v2) := by
  simp only [hostOps1, hostOps1_1]
  after_results_simp

theorem mid_keep_v27 : StableHlo.after (hostOps1_1 (F := F)) (StableHlo.after hostOps1 X) (Proc.devRef .tc main_v27) = X (Proc.devRef .tc main_v27) := by
  simp only [hostOps1, hostOps1_1]
  after_results_simp

theorem mid_keep_arg6 : StableHlo.after (hostOps1_1 (F := F)) (StableHlo.after hostOps1 X) (Proc.devRef .tc main_arg6) = X (Proc.devRef .tc main_arg6) := by
  simp only [hostOps1, hostOps1_1]
  after_results_simp

theorem mid_keep_arg7 : StableHlo.after (hostOps1_1 (F := F)) (StableHlo.after hostOps1 X) (Proc.devRef .tc main_arg7) = X (Proc.devRef .tc main_arg7) := by
  simp only [hostOps1, hostOps1_1]
  after_results_simp

/-! ## After the second product -/

theorem tail_out : StableHlo.after (hostOps2_1 (F := F)) (StableHlo.after hostOps2 X) (Proc.devRef .tc main_v63)
    = layer2 (X (Proc.devRef .tc main_v46)) (X (Proc.devRef .tc main_v1)) (X (Proc.devRef .tc main_v2)) (X (Proc.devRef .tc main_v27)) (X (Proc.devRef .tc main_arg7)) := by
  simp only [hostOps2, hostOps2_1]
  after_results_simp
  simp only [Cert.CastSame.cast_same]
  rfl

end Cert.KernelIdeal.HostReads

end
-- ==== Proof.LibDotRead.lean ====
/-
  A plain matrix product read at an entry.

  For a two-dimensional product with one contracted axis — rows × contraction times contraction × columns, no batch
  axis — the entry (r, k) of the product into a zero accumulator is the finite sum Σ j, lhs (r, j) · rhs (j, k) over the
  contraction's coordinate j : Fin n. The dimension record enters only through the four coordinate facts below
  (which operand coordinate each output and contraction coordinate supplies); for a printed record each of them is
  decided or holds by unfolding. The same sum is what the host's general dot product computes, so the two forms
  meet term by term.
-/
import Idealize.ShloMosaic.PureOps.Ideal
import Idealize.ShloMosaic.PureOps.Ideal.Laws
import Idealize.ShloMosaic.Lib.ValueIdx

noncomputable section

namespace Cert.DotRead

open Idealize.ShloMosaic Idealize.ShloMosaic.ValueIdx

/-- The four coordinate facts of a plain two-dimensional product whose contraction has the one coordinate of extent n:
    the left operand is read at (output row, contraction), the right one at (contraction, output column). -/
structure Plain {m n p : ℕ} (d : DotDims ⟨2, ![m, n]⟩ ⟨2, ![n, p]⟩ ⟨2, ![m, p]⟩) : Prop where
  rank : d.contr.rank = 1
  size : d.contr.size ⟨0, by omega⟩ = n
  lhs0 : ∀ (i : (⟨2, ![m, p]⟩ : Shape).Idx) (q : d.contr.Idx), (d.lhsIdx i q 0).val = (i 0).val
  lhs1 : ∀ (i : (⟨2, ![m, p]⟩ : Shape).Idx) (q : d.contr.Idx), (d.lhsIdx i q 1).val = (q ⟨0, by omega⟩).val
  rhs0 : ∀ (i : (⟨2, ![m, p]⟩ : Shape).Idx) (q : d.contr.Idx), (d.rhsIdx i q 0).val = (q ⟨0, by omega⟩).val
  rhs1 : ∀ (i : (⟨2, ![m, p]⟩ : Shape).Idx) (q : d.contr.Idx), (d.rhsIdx i q 1).val = (i 1).val

/-- Entry (r, k) of a plain product into the zero accumulator is Σ j, lhs (r, j) · rhs (j, k). -/
theorem matmul_zero_apply {m n p : ℕ} {φ₁ φ₂ : FTy} (d : DotDims ⟨2, ![m, n]⟩ ⟨2, ![n, p]⟩ ⟨2, ![m, p]⟩) (hd : Plain d)
    (prec : Option ContractPrecision) (lhs : FVec Ideal ⟨2, ![m, n]⟩ φ₁) (rhs : FVec Ideal ⟨2, ![n, p]⟩ φ₂) (r : Fin m) (k : Fin p) :
    matmul d prec lhs rhs (constant (F := Ideal) ⟨2, ![m, p]⟩ .f32 0x00000000#32) (ix2 r k)
      = ∑ j : Fin n, lhs (ix2 r j) * rhs (ix2 j k) := by
  simp only [matmul]
  rw [Ideal.matmul_constant_zero_apply, ← Equiv.sum_comp (contrEquiv1 d n hd.rank hd.size).symm]
  refine Finset.sum_congr rfl fun j _ => ?_
  have hj := contrEquiv1_symm_val d n hd.rank hd.size j
  have el : d.lhsIdx (ix2 r k) ((contrEquiv1 d n hd.rank hd.size).symm j) = ix2 r j := funext fun a => Fin.ext (by
    match a with
    | ⟨0, _⟩ => exact hd.lhs0 _ _
    | ⟨1, _⟩ => exact (hd.lhs1 _ _).trans hj)
  have er : d.rhsIdx (ix2 r k) ((contrEquiv1 d n hd.rank hd.size).symm j) = ix2 j k := funext fun a => Fin.ext (by
    match a with
    | ⟨0, _⟩ => exact (hd.rhs0 _ _).trans hj
    | ⟨1, _⟩ => exact hd.rhs1 _ _)
  rw [el, er]

end Cert.DotRead

end
-- ==== Proof.LibDotRows.lean ====
/-
  Rows of a plain matrix product, computed a block of rows at a time.

  For a two-dimensional product with one contracted axis and no batch axis, entry (r, k) of the host's general dot
  product is the finite sum Σ j, lhs (r, j) · rhs (j, k) — the same sum that a product into a zero accumulator
  computes. Hence a block of rows of the left operand, multiplied by the whole right operand into the zero
  accumulator, holds exactly the corresponding rows of the whole product: row r of the block's product is row R of
  the whole as soon as row r of the block is row R of the left operand. No entry needs to be finite: the two sides are
  the same sum of the same products, term by term.
-/
import Idealize.ShloMosaic.PureOps.Ideal
import Idealize.ShloMosaic.PureOps.Ideal.Laws
import Idealize.ShloMosaic.Lib.ValueIdx
import proofs.«130387_j24558622999235_1_alg».proof.Proof.LibDotRead

noncomputable section

namespace Cert.DotRows

open Idealize.ShloMosaic Idealize.ShloMosaic.ValueIdx Cert.DotRead

/-- Entry (r, k) of the host's plain product is Σ j, lhs (r, j) · rhs (j, k). -/
theorem hostDot_apply {m n p : ℕ} {φ₁ φ₂ : FTy} (d : DotDims ⟨2, ![m, n]⟩ ⟨2, ![n, p]⟩ ⟨2, ![m, p]⟩) (hd : Plain d)
    (prec : Option ContractPrecision) (lhs : FVec Ideal ⟨2, ![m, n]⟩ φ₁) (rhs : FVec Ideal ⟨2, ![n, p]⟩ φ₂) (r : Fin m) (k : Fin p) :
    Host.dotGeneral d prec lhs rhs (ix2 r k) = ∑ j : Fin n, lhs (ix2 r j) * rhs (ix2 j k) := by
  simp only [Host.dotGeneral]
  rw [Ideal.dotGeneral_apply, ← Equiv.sum_comp (contrEquiv1 d n hd.rank hd.size).symm]
  refine Finset.sum_congr rfl fun j _ => ?_
  have hj := contrEquiv1_symm_val d n hd.rank hd.size j
  have el : d.lhsIdx (ix2 r k) ((contrEquiv1 d n hd.rank hd.size).symm j) = ix2 r j := funext fun a => Fin.ext (by
    match a with
    | ⟨0, _⟩ => exact hd.lhs0 _ _
    | ⟨1, _⟩ => exact (hd.lhs1 _ _).trans hj)
  have er : d.rhsIdx (ix2 r k) ((contrEquiv1 d n hd.rank hd.size).symm j) = ix2 j k := funext fun a => Fin.ext (by
    match a with
    | ⟨0, _⟩ => exact (hd.rhs0 _ _).trans hj
    | ⟨1, _⟩ => exact hd.rhs1 _ _)
  rw [el, er]

/-- Row r of a block's product into the zero accumulator is row R of the whole host product, when row r of the block
    is row R of the whole left operand. The block has b rows, the whole M; both products contract the same n
    coordinates against the same right operand. -/
theorem block_row {M b n p : ℕ} {φ₁ φ₂ : FTy}
    (dK : DotDims ⟨2, ![b, n]⟩ ⟨2, ![n, p]⟩ ⟨2, ![b, p]⟩) (hK : Plain dK)
    (dH : DotDims ⟨2, ![M, n]⟩ ⟨2, ![n, p]⟩ ⟨2, ![M, p]⟩) (hH : Plain dH)
    (precK precH : Option ContractPrecision)
    (blk : FVec Ideal ⟨2, ![b, n]⟩ φ₁) (lhs : FVec Ideal ⟨2, ![M, n]⟩ φ₁) (rhs : FVec Ideal ⟨2, ![n, p]⟩ φ₂)
    (r : Fin b) (R : Fin M) (k : Fin p)
    (hrow : ∀ j : Fin n, blk (ix2 r j) = lhs (ix2 R j)) :
    matmul dK precK blk rhs (constant (F := Ideal) ⟨2, ![b, p]⟩ .f32 0x00000000#32) (ix2 r k)
      = Host.dotGeneral dH precH lhs rhs (ix2 R k) := by
  rw [matmul_zero_apply dK hK, hostDot_apply dH hH]
  exact Finset.sum_congr rfl fun j _ => by rw [hrow j]

end Cert.DotRows

end
-- ==== Proof.Product1.lean ====
/-
  The first matrix product, x · W1, as the grid of 50 row blocks leaves it.

  The grid has 50 points; point t multiplies rows 1000·t … 1000·t + 999 of the left operand (a block of 1000 rows, all
  2000 columns) by the whole right operand into a zero accumulator and writes the 1000 × 8 result back as the same rows
  of the output array. A row of a product depends on that row of the left operand only, so each block written back is
  a block of rows of the whole product; the 50 blocks tile the 50000 rows, so when the grid has run the output array is
  the whole product of the two arrays as the grid found them — the host's general dot product of the same arrays,
  index by index, the same finite sums. Nothing here needs an entry to be finite.
-/
import proofs.«130387_j24558622999235_1_alg».proof.Proof.Gen.KernelIdeal.Frame
import proofs.«130387_j24558622999235_1_alg».proof.Proof.Gen.ReferenceIdeal
import proofs.«130387_j24558622999235_1_alg».proof.Proof.LibDotRows
import Idealize.ShloMosaic.Lib.Pipeline.Value
import Idealize.ShloMosaic.Lib.ValueIdx

set_option maxRecDepth 16384

noncomputable section

namespace Cert.KernelIdeal.Product1

open Cert.KernelIdeal Cert.KernelIdeal.Gen
open Idealize.ShloMosaic Idealize.ShloMosaic.TcCoe Idealize.SL.Sem Idealize.ShloMosaic.ValueIdx
open Idealize.ShloMosaic.Pipeline (Dat)

-- the buffers' contents when the grid is entered: any
variable (V : (c : Dev nD) → (b : Ref sig .tc) → Buf (Elt Ideal) ((c : Thread nD τ).loc b))

theorem hz : (![0, 0] : Fin 2 → Nat) = fun _ => 0 := funext fun a => by fin_cases a <;> rfl

/-- The block product's dimension record reads the left operand at (row, contraction) and the right one at
    (contraction, column). -/
theorem plainBlock : Cert.DotRead.Plain dot_S1000x2000_S2000x8_S1000x8_1_0_0_1_n_n where
  rank := rfl
  size := rfl
  lhs0 := fun i q => by
    unfold DotDims.lhsIdx
    rw [dif_neg (show ¬(0 : Fin S1000x2000.rank) ∈ dot_S1000x2000_S2000x8_S1000x8_1_0_0_1_n_n.lhsBatch by decide), dif_pos (show (0 : Fin S1000x2000.rank) ∈ dot_S1000x2000_S2000x8_S1000x8_1_0_0_1_n_n.lhsNonContracting by decide)]
    rfl
  lhs1 := fun i q => dot_S1000x2000_S2000x8_S1000x8_1_0_0_1_n_n.lhsIdx_val_of_single rfl i q
  rhs0 := fun i q => dot_S1000x2000_S2000x8_S1000x8_1_0_0_1_n_n.rhsIdx_val_of_single rfl i q
  rhs1 := fun i q => by
    unfold DotDims.rhsIdx
    rw [dif_neg (show ¬(1 : Fin S2000x8.rank) ∈ dot_S1000x2000_S2000x8_S1000x8_1_0_0_1_n_n.rhsBatch by decide), dif_pos (show (1 : Fin S2000x8.rank) ∈ dot_S1000x2000_S2000x8_S1000x8_1_0_0_1_n_n.rhsNonContracting by decide)]
    rfl

/-- So does the whole product's record. -/
theorem plainWhole : Cert.DotRead.Plain Cert.ReferenceIdeal.dot_S50000x2000_S2000x8_S50000x8_1_0_0_1_n_n where
  rank := rfl
  size := rfl
  lhs0 := fun i q => by
    unfold DotDims.lhsIdx
    rw [dif_neg (show ¬(0 : Fin Cert.ReferenceIdeal.S50000x2000.rank) ∈ Cert.ReferenceIdeal.dot_S50000x2000_S2000x8_S50000x8_1_0_0_1_n_n.lhsBatch by decide), dif_pos (show (0 : Fin Cert.ReferenceIdeal.S50000x2000.rank) ∈ Cert.ReferenceIdeal.dot_S50000x2000_S2000x8_S50000x8_1_0_0_1_n_n.lhsNonContracting by decide)]
    rfl
  lhs1 := fun i q => Cert.ReferenceIdeal.dot_S50000x2000_S2000x8_S50000x8_1_0_0_1_n_n.lhsIdx_val_of_single rfl i q
  rhs0 := fun i q => Cert.ReferenceIdeal.dot_S50000x2000_S2000x8_S50000x8_1_0_0_1_n_n.rhsIdx_val_of_single rfl i q
  rhs1 := fun i q => by
    unfold DotDims.rhsIdx
    rw [dif_neg (show ¬(1 : Fin Cert.ReferenceIdeal.S2000x8.rank) ∈ Cert.ReferenceIdeal.dot_S50000x2000_S2000x8_S50000x8_1_0_0_1_n_n.rhsBatch by decide), dif_pos (show (1 : Fin Cert.ReferenceIdeal.S2000x8.rank) ∈ Cert.ReferenceIdeal.dot_S50000x2000_S2000x8_S50000x8_1_0_0_1_n_n.rhsNonContracting by decide)]
    rfl

/-- The whole product of the two arrays as the grid finds them. -/
abbrev whole (c : Dev nD) : S50000x8.Idx → Elt Ideal .f32 :=
  Host.dotGeneral (F := Ideal) (φ₁ := .f32) (φ₂ := .f32) Cert.ReferenceIdeal.dot_S50000x2000_S2000x8_S50000x8_1_0_0_1_n_n none
    (V c main_arg0 : FVec Ideal S50000x2000 .f32) (V c main_arg4 : FVec Ideal S2000x8 .f32)

/-- The index maps over the grid: the left operand's and the output's block moves down one block of rows per point,
    the right operand's block is the whole array at every point. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (r, k) of the block product of a block whose row r is row R of the left array is entry (R, k) of the whole
    product: over variables, to be used at a point's blocks. -/
theorem pay_apply (x0 : FVec Ideal S1000x2000 .f32) (x1 : FVec Ideal S2000x8 .f32)
    (lhs : FVec Ideal S50000x2000 .f32) (r : Fin 1000) (R : Fin 50000) (k : Fin 8)
    (hrow : ∀ j : Fin 2000, x0 (ix2 r j) = lhs (ix2 R j)) :
    k0_pay1 (F := Ideal) x0 x1 (ix2 r k)
      = Host.dotGeneral (F := Ideal) (φ₁ := .f32) (φ₂ := .f32) Cert.ReferenceIdeal.dot_S50000x2000_S2000x8_S50000x8_1_0_0_1_n_n none lhs x1 (ix2 R k) := by
  unfold k0_pay1
  exact Cert.DotRows.block_row dot_S1000x2000_S2000x8_S1000x8_1_0_0_1_n_n plainBlock Cert.ReferenceIdeal.dot_S50000x2000_S2000x8_S50000x8_1_0_0_1_n_n plainWhole none none _ lhs x1 r R k hrow

/-- What point t writes back is block t of the whole product: row r of its block product is row 1000·t + r of the whole,
    since row r of the left block is that row of the left array and the right block is the whole right array. -/
theorem flushed_eq (c : Dev nD) (t : Fin cfg0.N) :
    (dat0 V c).flushed 2 t = ((cfg0.win 2).blk t).view.read (Elt Ideal) (whole V c) := by
  show (cfg0.win 2).cut (grid0.coords t) ((dat0 V c).after 2 t) = _
  rw [after0_2]
  unfold out0_2
  rw [View.canon_unit_zero hz]
  simp only [View.ld_unit_zero (S := S1000x2000) hz, View.ld_unit_zero (S := S2000x8) hz]
  obtain ⟨e0, e1, e2, e3, e4, e5⟩ := idx_facts t
  have hN : cfg0.N = 50 := N_0
  have ht : t.val < 50 := by have := t.isLt; omega
  funext j
  obtain ⟨r, k, rfl⟩ : ∃ (r : Fin 1000) (k : Fin 8), j = ix2 r k := ⟨j 0, j 1, eq_ix2 j⟩
  have hr : r.val < 1000 := r.isLt
  have hk : k.val < 8 := k.isLt
  have hR : t.val * 1000 + r.val < 50000 := by omega
  show k0_pay1 (F := Ideal) (iblk0 V c 0 t) (iblk0 V c 1 t) (ix2 r k) = whole V c (((cfg0.win 2).blk t).view.emb (ix2 r k))
  have hemb : ((cfg0.win 2).blk t).view.emb (ix2 r k) = ix2 (⟨t.val * 1000 + r.val, hR⟩ : Fin 50000) k := by
    funext a; apply Fin.ext
    match a with
    | ⟨0, _⟩ => show win0_2.index t (0 : Fin 2) * 1000 + 1 * r.val = t.val * 1000 + r.val; omega
    | ⟨1, _⟩ => show win0_2.index t (1 : Fin 2) * 8 + 1 * k.val = k.val; omega
  have hW : iblk0 V c 1 t = (V c main_arg4 : FVec Ideal S2000x8 .f32) := by
    funext y
    show V c main_arg4 (((cfg0.win 1).blk t).view.emb y) = V c main_arg4 y
    refine congrArg _ (funext fun a => Fin.ext ?_)
    match a with
    | ⟨0, _⟩ => show win0_1.index t (0 : Fin 2) * 2000 + 1 * (y 0).val = (y 0).val; omega
    | ⟨1, _⟩ => show win0_1.index t (1 : Fin 2) * 8 + 1 * (y 1).val = (y 1).val; omega
  rw [hemb, hW]
  refine pay_apply (iblk0 V c 0 t) (V c main_arg4) (V c main_arg0) r ⟨t.val * 1000 + r.val, hR⟩ k (fun j => ?_)
  show V c main_arg0 (((cfg0.win 0).blk t).view.emb (ix2 r j)) = V c main_arg0 (ix2 (⟨t.val * 1000 + r.val, hR⟩ : Fin 50000) j)
  have hj : j.val < 2000 := j.isLt
  refine congrArg _ (funext fun a => Fin.ext ?_)
  match a with
  | ⟨0, _⟩ => show win0_0.index t (0 : Fin 2) * 1000 + 1 * r.val = t.val * 1000 + r.val; omega
  | ⟨1, _⟩ => show win0_0.index t (1 : Fin 2) * 2000 + 1 * j.val = j.val; omega

/-- An index of the output array is in point t's block iff each coordinate is in the block's range on its axis. -/
theorem mem_blk (t : Fin cfg0.N) (i : S50000x8.Idx) :
    i ∈ ((cfg0.win 2).blk t).view.set ↔ ∀ a : Fin 2, win0_2.index t a * S1000x8.size a ≤ (i a).val ∧ (i a).val < win0_2.index t a * S1000x8.size a + S1000x8.size a := by
  show i ∈ ((View.whole main_v28).slice (win0_2.rect t)).set ↔ _
  rw [View.set_slice_whole, Rect.mem_set_unit]
  exact Iff.rfl

/-- The blocks tile the rows: row i is in the block of point i / 1000. -/
theorem cover (i : S50000x8.Idx) : ∃ t : Fin cfg0.N, (cfg0.win 2).flush t = true ∧ i ∈ ((cfg0.win 2).blk t).view.set := by
  have hi0 : (i 0).val < 50000 := (i 0).isLt
  have hi1 : (i 1).val < 8 := (i 1).isLt
  have hN : cfg0.N = 50 := N_0
  refine ⟨⟨(i 0).val / 1000, by omega⟩, flush0_2 _, ?_⟩
  rw [mem_blk]
  obtain ⟨e0, e1, e2, e3, e4, e5⟩ := idx_facts ⟨(i 0).val / 1000, by omega⟩
  intro a
  match a with
  | ⟨0, _⟩ =>
    show win0_2.index ⟨(i 0).val / 1000, _⟩ (0 : Fin 2) * 1000 ≤ (i 0).val ∧ (i 0).val < win0_2.index ⟨(i 0).val / 1000, _⟩ (0 : Fin 2) * 1000 + 1000
    rw [e4]; show (i 0).val / 1000 * 1000 ≤ (i 0).val ∧ (i 0).val < (i 0).val / 1000 * 1000 + 1000; omega
  | ⟨1, _⟩ =>
    show win0_2.index ⟨(i 0).val / 1000, _⟩ (1 : Fin 2) * 8 ≤ (i 1).val ∧ (i 1).val < win0_2.index ⟨(i 0).val / 1000, _⟩ (1 : Fin 2) * 8 + 8
    rw [e5]; omega

/-- When the grid has run, its output array is the whole product of the two arrays it found. -/
theorem final (c : Dev nD) : (dat0 V c).arrAt 2 cfg0.N = whole V c :=
  (dat0 V c).arrAt_eq_of_cover 2 (whole V c) (fun t _ => flushed_eq V c t) (cover)

end Cert.KernelIdeal.Product1

end
-- ==== Proof.Product2.lean ====
/-
  The second matrix product, h · W2, as the grid of 10 row blocks leaves it.

  The grid has 10 points; point t multiplies rows 5000·t … 5000·t + 4999 of the left operand (a block of 5000 rows, all
  8 columns, cast to its own shape, which changes nothing) by the whole right operand into a zero accumulator and writes the 5000 × 8 result back as the same rows
  of the output array. A row of a product depends on that row of the left operand only, so each block written back is
  a block of rows of the whole product; the 10 blocks tile the 50000 rows, so when the grid has run the output array is
  the whole product of the two arrays as the grid found them — the host's general dot product of the same arrays,
  index by index, the same finite sums. Nothing here needs an entry to be finite.
-/
import proofs.«130387_j24558622999235_1_alg».proof.Proof.Gen.KernelIdeal.Frame
import proofs.«130387_j24558622999235_1_alg».proof.Proof.Gen.ReferenceIdeal
import proofs.«130387_j24558622999235_1_alg».proof.Proof.LibDotRows
import Idealize.ShloMosaic.Lib.Pipeline.Value
import Idealize.ShloMosaic.Lib.ValueIdx

set_option maxRecDepth 16384

noncomputable section

namespace Cert.KernelIdeal.Product2

open Cert.KernelIdeal Cert.KernelIdeal.Gen
open Idealize.ShloMosaic Idealize.ShloMosaic.TcCoe Idealize.SL.Sem Idealize.ShloMosaic.ValueIdx
open Idealize.ShloMosaic.Pipeline (Dat)

-- the buffers' contents when the grid is entered: any
variable (V : (c : Dev nD) → (b : Ref sig .tc) → Buf (Elt Ideal) ((c : Thread nD τ).loc b))

theorem hz : (![0, 0] : Fin 2 → Nat) = fun _ => 0 := funext fun a => by fin_cases a <;> rfl

/-- The block product's dimension record reads the left operand at (row, contraction) and the right one at
    (contraction, column). -/
theorem plainBlock : Cert.DotRead.Plain dot_S5000x8_S8x8_S5000x8_1_0_0_1_n_n where
  rank := rfl
  size := rfl
  lhs0 := fun i q => by
    unfold DotDims.lhsIdx
    rw [dif_neg (show ¬(0 : Fin S5000x8.rank) ∈ dot_S5000x8_S8x8_S5000x8_1_0_0_1_n_n.lhsBatch by decide), dif_pos (show (0 : Fin S5000x8.rank) ∈ dot_S5000x8_S8x8_S5000x8_1_0_0_1_n_n.lhsNonContracting by decide)]
    rfl
  lhs1 := fun i q => dot_S5000x8_S8x8_S5000x8_1_0_0_1_n_n.lhsIdx_val_of_single rfl i q
  rhs0 := fun i q => dot_S5000x8_S8x8_S5000x8_1_0_0_1_n_n.rhsIdx_val_of_single rfl i q
  rhs1 := fun i q => by
    unfold DotDims.rhsIdx
    rw [dif_neg (show ¬(1 : Fin S8x8.rank) ∈ dot_S5000x8_S8x8_S5000x8_1_0_0_1_n_n.rhsBatch by decide), dif_pos (show (1 : Fin S8x8.rank) ∈ dot_S5000x8_S8x8_S5000x8_1_0_0_1_n_n.rhsNonContracting by decide)]
    rfl

/-- So does the whole product's record. -/
theorem plainWhole : Cert.DotRead.Plain Cert.ReferenceIdeal.dot_S50000x8_S8x8_S50000x8_1_0_0_1_n_n where
  rank := rfl
  size := rfl
  lhs0 := fun i q => by
    unfold DotDims.lhsIdx
    rw [dif_neg (show ¬(0 : Fin Cert.ReferenceIdeal.S50000x8.rank) ∈ Cert.ReferenceIdeal.dot_S50000x8_S8x8_S50000x8_1_0_0_1_n_n.lhsBatch by decide), dif_pos (show (0 : Fin Cert.ReferenceIdeal.S50000x8.rank) ∈ Cert.ReferenceIdeal.dot_S50000x8_S8x8_S50000x8_1_0_0_1_n_n.lhsNonContracting by decide)]
    rfl
  lhs1 := fun i q => Cert.ReferenceIdeal.dot_S50000x8_S8x8_S50000x8_1_0_0_1_n_n.lhsIdx_val_of_single rfl i q
  rhs0 := fun i q => Cert.ReferenceIdeal.dot_S50000x8_S8x8_S50000x8_1_0_0_1_n_n.rhsIdx_val_of_single rfl i q
  rhs1 := fun i q => by
    unfold DotDims.rhsIdx
    rw [dif_neg (show ¬(1 : Fin Cert.ReferenceIdeal.S8x8.rank) ∈ Cert.ReferenceIdeal.dot_S50000x8_S8x8_S50000x8_1_0_0_1_n_n.rhsBatch by decide), dif_pos (show (1 : Fin Cert.ReferenceIdeal.S8x8.rank) ∈ Cert.ReferenceIdeal.dot_S50000x8_S8x8_S50000x8_1_0_0_1_n_n.rhsNonContracting by decide)]
    rfl

/-- The whole product of the two arrays as the grid finds them. -/
abbrev whole (c : Dev nD) : S50000x8.Idx → Elt Ideal .f32 :=
  Host.dotGeneral (F := Ideal) (φ₁ := .f32) (φ₂ := .f32) Cert.ReferenceIdeal.dot_S50000x8_S8x8_S50000x8_1_0_0_1_n_n none
    (V c main_v45 : FVec Ideal S50000x8 .f32) (V c main_arg6 : FVec Ideal S8x8 .f32)

/-- The index maps over the grid: the left operand's and the output's block moves down one block of rows per point,
    the right operand's block is the whole array at every point. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Entry (r, k) of the block product of a block whose row r is row R of the left array is entry (R, k) of the whole
    product: over variables, to be used at a point's blocks. -/
theorem pay_apply (x0 : FVec Ideal S5000x8 .f32) (x1 : FVec Ideal S8x8 .f32)
    (lhs : FVec Ideal S50000x8 .f32) (r : Fin 5000) (R : Fin 50000) (k : Fin 8)
    (hrow : ∀ j : Fin 8, x0 (ix2 r j) = lhs (ix2 R j)) :
    k1_pay1 (F := Ideal) x0 x1 (ix2 r k)
      = Host.dotGeneral (F := Ideal) (φ₁ := .f32) (φ₂ := .f32) Cert.ReferenceIdeal.dot_S50000x8_S8x8_S50000x8_1_0_0_1_n_n none lhs x1 (ix2 R k) := by
  unfold k1_pay1
  rw [shapeCast_self]
  exact Cert.DotRows.block_row dot_S5000x8_S8x8_S5000x8_1_0_0_1_n_n plainBlock Cert.ReferenceIdeal.dot_S50000x8_S8x8_S50000x8_1_0_0_1_n_n plainWhole none none _ lhs x1 r R k hrow

/-- What point t writes back is block t of the whole product: row r of its block product is row 5000·t + r of the whole,
    since row r of the left block is that row of the left array and the right block is the whole right array. -/
theorem flushed_eq (c : Dev nD) (t : Fin cfg1.N) :
    (dat1 V c).flushed 2 t = ((cfg1.win 2).blk t).view.read (Elt Ideal) (whole V c) := by
  show (cfg1.win 2).cut (grid1.coords t) ((dat1 V c).after 2 t) = _
  rw [after1_2]
  unfold out1_2
  rw [View.canon_unit_zero hz]
  simp only [View.ld_unit_zero (S := S5000x8) hz, View.ld_unit_zero (S := S8x8) hz]
  obtain ⟨e0, e1, e2, e3, e4, e5⟩ := idx_facts t
  have hN : cfg1.N = 10 := N_1
  have ht : t.val < 10 := by have := t.isLt; omega
  funext j
  obtain ⟨r, k, rfl⟩ : ∃ (r : Fin 5000) (k : Fin 8), j = ix2 r k := ⟨j 0, j 1, eq_ix2 j⟩
  have hr : r.val < 5000 := r.isLt
  have hk : k.val < 8 := k.isLt
  have hR : t.val * 5000 + r.val < 50000 := by omega
  show k1_pay1 (F := Ideal) (iblk1 V c 0 t) (iblk1 V c 1 t) (ix2 r k) = whole V c (((cfg1.win 2).blk t).view.emb (ix2 r k))
  have hemb : ((cfg1.win 2).blk t).view.emb (ix2 r k) = ix2 (⟨t.val * 5000 + r.val, hR⟩ : Fin 50000) k := by
    funext a; apply Fin.ext
    match a with
    | ⟨0, _⟩ => show win1_2.index t (0 : Fin 2) * 5000 + 1 * r.val = t.val * 5000 + r.val; omega
    | ⟨1, _⟩ => show win1_2.index t (1 : Fin 2) * 8 + 1 * k.val = k.val; omega
  have hW : iblk1 V c 1 t = (V c main_arg6 : FVec Ideal S8x8 .f32) := by
    funext y
    show V c main_arg6 (((cfg1.win 1).blk t).view.emb y) = V c main_arg6 y
    refine congrArg _ (funext fun a => Fin.ext ?_)
    match a with
    | ⟨0, _⟩ => show win1_1.index t (0 : Fin 2) * 8 + 1 * (y 0).val = (y 0).val; omega
    | ⟨1, _⟩ => show win1_1.index t (1 : Fin 2) * 8 + 1 * (y 1).val = (y 1).val; omega
  rw [hemb, hW]
  refine pay_apply (iblk1 V c 0 t) (V c main_arg6) (V c main_v45) r ⟨t.val * 5000 + r.val, hR⟩ k (fun j => ?_)
  show V c main_v45 (((cfg1.win 0).blk t).view.emb (ix2 r j)) = V c main_v45 (ix2 (⟨t.val * 5000 + r.val, hR⟩ : Fin 50000) j)
  have hj : j.val < 8 := j.isLt
  refine congrArg _ (funext fun a => Fin.ext ?_)
  match a with
  | ⟨0, _⟩ => show win1_0.index t (0 : Fin 2) * 5000 + 1 * r.val = t.val * 5000 + r.val; omega
  | ⟨1, _⟩ => show win1_0.index t (1 : Fin 2) * 8 + 1 * j.val = j.val; omega

/-- An index of the output array is in point t's block iff each coordinate is in the block's range on its axis. -/
theorem mem_blk (t : Fin cfg1.N) (i : S50000x8.Idx) :
    i ∈ ((cfg1.win 2).blk t).view.set ↔ ∀ a : Fin 2, win1_2.index t a * S5000x8.size a ≤ (i a).val ∧ (i a).val < win1_2.index t a * S5000x8.size a + S5000x8.size a := by
  show i ∈ ((View.whole main_v46).slice (win1_2.rect t)).set ↔ _
  rw [View.set_slice_whole, Rect.mem_set_unit]
  exact Iff.rfl

/-- The blocks tile the rows: row i is in the block of point i / 5000. -/
theorem cover (i : S50000x8.Idx) : ∃ t : Fin cfg1.N, (cfg1.win 2).flush t = true ∧ i ∈ ((cfg1.win 2).blk t).view.set := by
  have hi0 : (i 0).val < 50000 := (i 0).isLt
  have hi1 : (i 1).val < 8 := (i 1).isLt
  have hN : cfg1.N = 10 := N_1
  refine ⟨⟨(i 0).val / 5000, by omega⟩, flush1_2 _, ?_⟩
  rw [mem_blk]
  obtain ⟨e0, e1, e2, e3, e4, e5⟩ := idx_facts ⟨(i 0).val / 5000, by omega⟩
  intro a
  match a with
  | ⟨0, _⟩ =>
    show win1_2.index ⟨(i 0).val / 5000, _⟩ (0 : Fin 2) * 5000 ≤ (i 0).val ∧ (i 0).val < win1_2.index ⟨(i 0).val / 5000, _⟩ (0 : Fin 2) * 5000 + 5000
    rw [e4]; show (i 0).val / 5000 * 5000 ≤ (i 0).val ∧ (i 0).val < (i 0).val / 5000 * 5000 + 5000; omega
  | ⟨1, _⟩ =>
    show win1_2.index ⟨(i 0).val / 5000, _⟩ (1 : Fin 2) * 8 ≤ (i 1).val ∧ (i 1).val < win1_2.index ⟨(i 0).val / 5000, _⟩ (1 : Fin 2) * 8 + 8
    rw [e5]; omega

/-- When the grid has run, its output array is the whole product of the two arrays it found. -/
theorem final (c : Dev nD) : (dat1 V c).arrAt 2 cfg1.N = whole V c :=
  (dat1 V c).arrAt_eq_of_cover 2 (whole V c) (fun t _ => flushed_eq V c t) (cover)

end Cert.KernelIdeal.Product2

end
-- ==== Proof.KernelValue.lean ====
/-
  What the idealized kernel program leaves in its result buffer, as a function of the launch memory.

  The run ends with every buffer at the last segment boundary's contents (`W9`). Walking the boundaries backwards:
  the last stretch of host operations makes the result `layer2` of the second product's array, the two edge lists
  with their self loops, the edges' normalisation and the second bias; the second grid leaves, in its output array,
  the host's product of the rectified first layer and W2 as it found them, and touches nothing else; the middle
  stretch makes that rectified first layer `layer1` of the first product's array and the same lists; the first grid
  leaves the host's product of x and W1; and the first stretch computes the lists and the normalisation from the
  launch memory. No segment writes an argument. Composed, the result is `net` of the eight launch arrays.
-/
import proofs.«130387_j24558622999235_1_alg».proof.Proof.Gen.KernelIdeal.Frame
import proofs.«130387_j24558622999235_1_alg».proof.Proof.Shared
import proofs.«130387_j24558622999235_1_alg».proof.Proof.HostReads
import proofs.«130387_j24558622999235_1_alg».proof.Proof.Product1
import proofs.«130387_j24558622999235_1_alg».proof.Proof.Product2

set_option maxRecDepth 16384

noncomputable section

namespace Cert.KernelIdeal.NetValue

open Cert.KernelIdeal Cert.KernelIdeal.Gen
open Idealize.ShloMosaic Idealize.ShloMosaic.TcCoe Idealize.SL.Sem Idealize.ShloMosaic.StableHlo
open Cert.GraphConv

variable (m : (ℓ : Loc nD τ sig) → Buf (Elt Ideal) ℓ) (ρ : Dev nD → PrngReg) (c : Dev nD)

/-! ## At the first grid's entry -/

theorem W3_sources : W3 m ρ c (Proc.devRef .tc main_v1) = withLoops (F := Ideal) (m ((c : Thread nD τ).loc main_arg1)) := HostReads.pre_sources (W0 m ρ c)
theorem W3_targets : W3 m ρ c (Proc.devRef .tc main_v2) = withLoops (F := Ideal) (m ((c : Thread nD τ).loc main_arg2)) := HostReads.pre_targets (W0 m ρ c)
theorem W3_norm : W3 m ρ c (Proc.devRef .tc main_v27) = norm (F := Ideal) (m ((c : Thread nD τ).loc main_arg1)) (m ((c : Thread nD τ).loc main_arg2)) (m ((c : Thread nD τ).loc main_arg3)) := HostReads.pre_norm (W0 m ρ c)
theorem W3_arg0 : W3 m ρ c (Proc.devRef .tc main_arg0) = (m ((c : Thread nD τ).loc main_arg0)) := HostReads.pre_keep_arg0 (W0 m ρ c)
theorem W3_arg4 : W3 m ρ c (Proc.devRef .tc main_arg4) = (m ((c : Thread nD τ).loc main_arg4)) := HostReads.pre_keep_arg4 (W0 m ρ c)
theorem W3_arg5 : W3 m ρ c (Proc.devRef .tc main_arg5) = (m ((c : Thread nD τ).loc main_arg5)) := HostReads.pre_keep_arg5 (W0 m ρ c)
theorem W3_arg6 : W3 m ρ c (Proc.devRef .tc main_arg6) = (m ((c : Thread nD τ).loc main_arg6)) := HostReads.pre_keep_arg6 (W0 m ρ c)
theorem W3_arg7 : W3 m ρ c (Proc.devRef .tc main_arg7) = (m ((c : Thread nD τ).loc main_arg7)) := HostReads.pre_keep_arg7 (W0 m ρ c)

/-! ## At the first grid's exit -/

theorem W4_product : W4 m ρ c (Proc.devRef .tc main_v28) = Host.dotGeneral (F := Ideal) (φ₁ := .f32) (φ₂ := .f32) Cert.ReferenceIdeal.dot_S50000x2000_S2000x8_S50000x8_1_0_0_1_n_n none (m ((c : Thread nD τ).loc main_arg0)) (m ((c : Thread nD τ).loc main_arg4)) := by
  refine (W4_arr m ρ c 2).trans ((Product1.final (V3 m ρ) c).trans ?_)
  show Host.dotGeneral (F := Ideal) (φ₁ := .f32) (φ₂ := .f32) Cert.ReferenceIdeal.dot_S50000x2000_S2000x8_S50000x8_1_0_0_1_n_n none (W3 m ρ c (Proc.devRef .tc main_arg0)) (W3 m ρ c (Proc.devRef .tc main_arg4)) = _
  rw [W3_arg0, W3_arg4]
theorem W4_sources : W4 m ρ c (Proc.devRef .tc main_v1) = withLoops (F := Ideal) (m ((c : Thread nD τ).loc main_arg1)) := (W4_of_ne m ρ c main_v1 (by decide)).trans (W3_sources m ρ c)
theorem W4_targets : W4 m ρ c (Proc.devRef .tc main_v2) = withLoops (F := Ideal) (m ((c : Thread nD τ).loc main_arg2)) := (W4_of_ne m ρ c main_v2 (by decide)).trans (W3_targets m ρ c)
theorem W4_norm : W4 m ρ c (Proc.devRef .tc main_v27) = norm (F := Ideal) (m ((c : Thread nD τ).loc main_arg1)) (m ((c : Thread nD τ).loc main_arg2)) (m ((c : Thread nD τ).loc main_arg3)) := (W4_of_ne m ρ c main_v27 (by decide)).trans (W3_norm m ρ c)
theorem W4_arg5 : W4 m ρ c (Proc.devRef .tc main_arg5) = (m ((c : Thread nD τ).loc main_arg5)) := (W4_of_ne m ρ c main_arg5 (by decide)).trans (W3_arg5 m ρ c)
theorem W4_arg6 : W4 m ρ c (Proc.devRef .tc main_arg6) = (m ((c : Thread nD τ).loc main_arg6)) := (W4_of_ne m ρ c main_arg6 (by decide)).trans (W3_arg6 m ρ c)
theorem W4_arg7 : W4 m ρ c (Proc.devRef .tc main_arg7) = (m ((c : Thread nD τ).loc main_arg7)) := (W4_of_ne m ρ c main_arg7 (by decide)).trans (W3_arg7 m ρ c)

/-! ## At the second grid's entry -/

theorem W6_layer1 : W6 m ρ c (Proc.devRef .tc main_v45) = layer1 (F := Ideal) (Host.dotGeneral (F := Ideal) (φ₁ := .f32) (φ₂ := .f32) Cert.ReferenceIdeal.dot_S50000x2000_S2000x8_S50000x8_1_0_0_1_n_n none (m ((c : Thread nD τ).loc main_arg0)) (m ((c : Thread nD τ).loc main_arg4))) (withLoops (F := Ideal) (m ((c : Thread nD τ).loc main_arg1))) (withLoops (F := Ideal) (m ((c : Thread nD τ).loc main_arg2))) (norm (F := Ideal) (m ((c : Thread nD τ).loc main_arg1)) (m ((c : Thread nD τ).loc main_arg2)) (m ((c : Thread nD τ).loc main_arg3))) (m ((c : Thread nD τ).loc main_arg5)) := by
  refine (HostReads.mid_out (W4 m ρ c)).trans ?_
  rw [W4_product, W4_sources, W4_targets, W4_norm, W4_arg5]
theorem W6_sources : W6 m ρ c (Proc.devRef .tc main_v1) = withLoops (F := Ideal) (m ((c : Thread nD τ).loc main_arg1)) := (HostReads.mid_keep_v1 (W4 m ρ c)).trans (W4_sources m ρ c)
theorem W6_targets : W6 m ρ c (Proc.devRef .tc main_v2) = withLoops (F := Ideal) (m ((c : Thread nD τ).loc main_arg2)) := (HostReads.mid_keep_v2 (W4 m ρ c)).trans (W4_targets m ρ c)
theorem W6_norm : W6 m ρ c (Proc.devRef .tc main_v27) = norm (F := Ideal) (m ((c : Thread nD τ).loc main_arg1)) (m ((c : Thread nD τ).loc main_arg2)) (m ((c : Thread nD τ).loc main_arg3)) := (HostReads.mid_keep_v27 (W4 m ρ c)).trans (W4_norm m ρ c)
theorem W6_arg6 : W6 m ρ c (Proc.devRef .tc main_arg6) = (m ((c : Thread nD τ).loc main_arg6)) := (HostReads.mid_keep_arg6 (W4 m ρ c)).trans (W4_arg6 m ρ c)
theorem W6_arg7 : W6 m ρ c (Proc.devRef .tc main_arg7) = (m ((c : Thread nD τ).loc main_arg7)) := (HostReads.mid_keep_arg7 (W4 m ρ c)).trans (W4_arg7 m ρ c)

/-! ## At the second grid's exit -/

theorem W7_product : W7 m ρ c (Proc.devRef .tc main_v46) = Host.dotGeneral (F := Ideal) (φ₁ := .f32) (φ₂ := .f32) Cert.ReferenceIdeal.dot_S50000x8_S8x8_S50000x8_1_0_0_1_n_n none (layer1 (F := Ideal) (Host.dotGeneral (F := Ideal) (φ₁ := .f32) (φ₂ := .f32) Cert.ReferenceIdeal.dot_S50000x2000_S2000x8_S50000x8_1_0_0_1_n_n none (m ((c : Thread nD τ).loc main_arg0)) (m ((c : Thread nD τ).loc main_arg4))) (withLoops (F := Ideal) (m ((c : Thread nD τ).loc main_arg1))) (withLoops (F := Ideal) (m ((c : Thread nD τ).loc main_arg2))) (norm (F := Ideal) (m ((c : Thread nD τ).loc main_arg1)) (m ((c : Thread nD τ).loc main_arg2)) (m ((c : Thread nD τ).loc main_arg3))) (m ((c : Thread nD τ).loc main_arg5))) (m ((c : Thread nD τ).loc main_arg6)) := by
  refine (W7_arr m ρ c 2).trans ((Product2.final (V6 m ρ) c).trans ?_)
  show Host.dotGeneral (F := Ideal) (φ₁ := .f32) (φ₂ := .f32) Cert.ReferenceIdeal.dot_S50000x8_S8x8_S50000x8_1_0_0_1_n_n none (W6 m ρ c (Proc.devRef .tc main_v45)) (W6 m ρ c (Proc.devRef .tc main_arg6)) = _
  rw [W6_layer1, W6_arg6]
theorem W7_sources : W7 m ρ c (Proc.devRef .tc main_v1) = withLoops (F := Ideal) (m ((c : Thread nD τ).loc main_arg1)) := (W7_of_ne m ρ c main_v1 (by decide)).trans (W6_sources m ρ c)
theorem W7_targets : W7 m ρ c (Proc.devRef .tc main_v2) = withLoops (F := Ideal) (m ((c : Thread nD τ).loc main_arg2)) := (W7_of_ne m ρ c main_v2 (by decide)).trans (W6_targets m ρ c)
theorem W7_norm : W7 m ρ c (Proc.devRef .tc main_v27) = norm (F := Ideal) (m ((c : Thread nD τ).loc main_arg1)) (m ((c : Thread nD τ).loc main_arg2)) (m ((c : Thread nD τ).loc main_arg3)) := (W7_of_ne m ρ c main_v27 (by decide)).trans (W6_norm m ρ c)
theorem W7_arg7 : W7 m ρ c (Proc.devRef .tc main_arg7) = (m ((c : Thread nD τ).loc main_arg7)) := (W7_of_ne m ρ c main_arg7 (by decide)).trans (W6_arg7 m ρ c)

/-! ## The result -/

/-- The last boundary's contents at the result's reference: the network of the eight launch arrays. -/
theorem result : W9 m ρ c (Proc.devRef .tc main_v63)
    = net (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (HostReads.tail_out (W7 m ρ c)).trans ?_
  rw [W7_product, W7_sources, W7_targets, W7_norm, W7_arg7]
  rfl

end Cert.KernelIdeal.NetValue

end
-- ==== Proof.RefTerm.lean ====
/-
  What the idealized reference leaves in its result buffer is the network of its eight launch arrays.

  The reference's run states its result as the composition of its 96 host operations applied to the launch arrays,
  written out as one term. The shared functions were cut from the same operations — the self loops, the
  normalisation, the two propagation steps, the rectifier, the log-softmax — with the two matrix products the
  host's general dot products, so unfolding them gives that term back, operation for operation.
-/
import proofs.«130387_j24558622999235_1_alg».proof.Proof.RefRunP
import proofs.«130387_j24558622999235_1_alg».proof.Proof.Shared

set_option maxRecDepth 16384

noncomputable section

namespace Cert.ReferenceIdeal.NetValue

open Cert.ReferenceIdeal Cert.ReferenceIdeal.Gen
open Idealize.ShloMosaic Idealize.ShloMosaic.TcCoe Idealize.SL.Sem Idealize.ShloMosaic.StableHlo
open Cert.GraphConv

variable {F : FTy → Type} [FloatOps F]

theorem result (m : (ℓ : Loc nD τ sig) → Buf (Elt F) ℓ) (c : Dev nD) :
    Cert.ReferenceIdeal.ValueP.res_main_v63 m c
      = net (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) := by
  unfold Cert.ReferenceIdeal.ValueP.res_main_v63 net layer2 layer1 logSoftmax centred relu conv norm dinv deg wrap weights withLoops
  rfl

end Cert.ReferenceIdeal.NetValue

end
-- ==== Proof.lean ====
/-
  A two-layer graph convolution: the kernel program against its reference, on the extended reals.

  Both programs compute, for 50000 nodes with 2000 features and 1.6 million weighted edges,
      logSoftmax (P (relu (P (x · W1) + b1) · W2) + b2)
  where the propagation `P` carries every node's row along the edges (and a self loop per node), scaled by the
  symmetric degree normalisation, and adds the rows up at the edges' targets. The reference computes the two matrix products
  x · W1 and h · W2 as the host's general dot products; the kernel program computes each on a grid of row blocks —
  50 blocks of 1000 rows for x · W1, 10 blocks of 5000 rows for h · W2 — every block multiplied by the whole right
  operand into a zero accumulator and written back as the same rows of the output. Everything else — the self loops,
  the normalisation, the two propagation steps, the biases, the rectifier, the log-softmax — is the same sequence of
  host operations in both programs.

  A row of a matrix product depends on that row of the left operand only, and entry (r, k) is the same finite sum
  Σ j, lhs (r, j) · rhs (j, k) however the rows are grouped; the blocks tile the rows. So each grid leaves the host's
  product of the arrays it found (Product1, Product2, over LibDotRead and LibDotRows), the host stretches around the
  grids are the shared functions of the arrays they read (HostReads, Shared), and the kernel program's result is the
  network `net` of its eight launch arrays (KernelRun, KernelValue). The reference's result is `net` of its launch
  arrays as well (its run, RefRunP, read by RefTerm). From memories agreeing on the arguments the two results are therefore equal,
  entry by entry, as extended reals; no step uses that an input is finite — the two sides are the same sums of the
  same products, and the same operations applied to them.

  The three frames: the two kernel programs' are the generated frame certificates; the reference's is its run with the
  result dropped. The idealization rewrote no operation, so `preserves` asks nothing.
-/
import proofs.«130387_j24558622999235_1_alg».proof.Defs
import proofs.«130387_j24558622999235_1_alg».proof.Proof.Gen.Kernel
import proofs.«130387_j24558622999235_1_alg».proof.Proof.Gen.Kernel.Skeleton
import proofs.«130387_j24558622999235_1_alg».proof.Proof.Gen.Kernel.Launch
import proofs.«130387_j24558622999235_1_alg».proof.Proof.Gen.Kernel.Points
import proofs.«130387_j24558622999235_1_alg».proof.Proof.Gen.Kernel.Frame
import proofs.«130387_j24558622999235_1_alg».proof.Proof.Gen.KernelIdeal
import proofs.«130387_j24558622999235_1_alg».proof.Proof.Gen.KernelIdeal.Skeleton
import proofs.«130387_j24558622999235_1_alg».proof.Proof.Gen.KernelIdeal.Launch
import proofs.«130387_j24558622999235_1_alg».proof.Proof.Gen.KernelIdeal.Points
import proofs.«130387_j24558622999235_1_alg».proof.Proof.Gen.KernelIdeal.Frame
import proofs.«130387_j24558622999235_1_alg».proof.Proof.Gen.ReferenceIdeal
import proofs.«130387_j24558622999235_1_alg».proof.Proof.Gen.Pre_finite_inputs
import proofs.«130387_j24558622999235_1_alg».proof.Proof.KernelRun
import proofs.«130387_j24558622999235_1_alg».proof.Proof.KernelValue
import proofs.«130387_j24558622999235_1_alg».proof.Proof.RefRunP
import proofs.«130387_j24558622999235_1_alg».proof.Proof.RefTerm
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- Both programs end with the network of the launch arrays in the result buffer; the launch arrays agree. -/
theorem algebraic : Cert.algebraic_KernelIdeal_ReferenceIdeal := by
  intro m ρ m' ρ' _ hagree
  refine ⟨fun c => Cert.GraphConv.net (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun _ h c => ⟨(h c).1.trans (Cert.KernelIdeal.NetValue.result m ρ c), (h c).2⟩)
      (Cert.KernelIdeal.NamedRun.run (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.NetValue.result, (hagree c).1, (hagree c).2.1, (hagree c).2.2.1, (hagree c).2.2.2.1, (hagree c).2.2.2.2.1,
      (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
